-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x128 : Shape := ⟨2, ![4096, 128]⟩
abbrev S512x2048 : Shape := ⟨2, ![512, 2048]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S256x64 : Shape := ⟨2, ![256, 64]⟩
abbrev S32768x4 : Shape := ⟨2, ![32768, 4]⟩
abbrev S_ : Shape := ⟨0, ![]⟩
abbrev S2048x512 : Shape := ⟨2, ![2048, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S4096 : Shape := ⟨1, ![4096]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  transposes_S512x2048_S2048x512_1_0 : S512x2048.Transposes [1, 0] S2048x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S256x64_S64x256_1_0 : S256x64.Transposes [1, 0] S64x256
  slices_S4096x256_S4096x128_0_0 : S4096x256.Slices ![0, 0] S4096x128
  slices_S4096x256_S4096x128_0_128 : S4096x256.Slices ![0, 128] S4096x128
  reducesTo_S4096x128_S4096_d1 : S4096x128.ReducesTo [1] S4096
  bcast_S_S4096 : S_.BroadcastsInDim S4096 (![] : Fin 0 → Fin S4096.rank)
  reducesTo_S4096_S_d0 : S4096.ReducesTo [0] S_
  dot_S4096x2048_S2048x512_S4096x512_1_0_0_1_n_n_wf : DotDims.WF S4096x2048 S2048x512 S4096x512 [1] [0] [0] [1] [] []
  dot_S4096x512_S512x256_S4096x256_1_0_0_1_n_n_wf : DotDims.WF S4096x512 S512x256 S4096x256 [1] [0] [0] [1] [] []
  dot_S4096x256_S256x64_S4096x64_1_0_0_1_n_n_wf : DotDims.WF S4096x256 S256x64 S4096x64 [1] [0] [0] [1] [] []
  dot_S4096x64_S64x256_S4096x256_1_0_0_1_n_n_wf : DotDims.WF S4096x64 S64x256 S4096x256 [1] [0] [0] [1] [] []

variable [Facts]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def fn_part9 {F : FTy → Type} [FloatOps F] (main_arg3 : FVec F S4096x128 .f32) (main_v137 : IVec S_ 1) (main_v164 : FVec F S4096x128 .f32) (main_v165 : FVec F S4096x128 .f32) : IVec S_ 1 :=
  let main_cst_48 : FVec F S_ .f32 := constant S_ .f32 0x3F000000#32
  let main_v166 : FVec F S4096x128 .f32 := broadcastInDim S4096x128 ![] bcast_S_S4096x128 main_cst_48
  let main_v167 : FVec F S4096x128 .f32 := mulf main_v166 main_v165
  let main_v168 : FVec F S4096x128 .f32 := Host.exp main_v167
  let main_v169 : FVec F S4096x128 .f32 := mulf main_arg3 main_v168
  let main_v170 : FVec F S4096x128 .f32 := addf main_v164 main_v169
  let main_v171 : FVec F S4096x128 .f32 := mulf main_v170 main_v170
  let main_cst_49 : FVec F S_ .f32 := constant S_ .f32 0x00000000#32
  let main_v172 : FVec F S4096 .f32 := (fun x v => Host.reduceAdd x v reducesTo_S4096x128_S4096_d1 h_S_) main_v171 main_cst_49
  let main_cst_50 : FVec F S_ .f32 := constant S_ .f32 0x00000000#32
  let main_v173 : FVec F S4096 .f32 := broadcastInDim S4096 ![] bcast_S_S4096 main_cst_50
  let main_v174 : IVec S4096 1 := cmpf .ogt main_v172 main_v173
  let main_c_51 : IVec S_ 1 := constantI S_ 1 1#1
  let main_v175 : IVec S_ 1 := (fun x v => Host.reduce IntOp.andi x v reducesTo_S4096_S_d0 h_S_) main_v174 main_c_51
  let main_v176 : IVec S_ 1 := andi main_v137 main_v175
  main_v176

def fn_part8 {F : FTy → Type} [FloatOps F] (main_arg3 : FVec F S4096x128 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v137 : IVec S_ 1) (main_v142 : FVec F S4096x512 .f32) (main_v143 : FVec F S4096x512 .f32) : IVec S_ 1 :=
  let main_v144 : FVec F S4096x512 .f32 := maximumf main_v142 main_v143
  let main_v145 : FVec F S512x256 .f32 := (transpose S512x256 [1, 0] · transposes_S256x512_S512x256_1_0) main_arg14
  let main_v146 : FVec F S4096x256 .f32 := (fun l r => Host.dotGeneral dot_S4096x512_S512x256_S4096x256_1_0_0_1_n_n none l r) main_v144 main_v145
  let main_v147 : FVec F S1x256 .f32 := broadcastInDim S1x256 ![1] bcast_S256_S1x256_1 main_arg15
  let main_v148 : FVec F S4096x256 .f32 := broadcastInDim S4096x256 ![0, 1] bcast_S1x256_S4096x256_0_1 main_v147
  let main_v149 : FVec F S4096x256 .f32 := addf main_v146 main_v148
  let main_cst_46 : FVec F S_ .f32 := constant S_ .f32 0x00000000#32
  let main_v150 : FVec F S4096x256 .f32 := broadcastInDim S4096x256 ![] bcast_S_S4096x256 main_cst_46
  let main_v151 : FVec F S4096x256 .f32 := maximumf main_v149 main_v150
  let main_v152 : FVec F S256x64 .f32 := (transpose S256x64 [1, 0] · transposes_S64x256_S256x64_1_0) main_arg16
  let main_v153 : FVec F S4096x64 .f32 := (fun l r => Host.dotGeneral dot_S4096x256_S256x64_S4096x64_1_0_0_1_n_n none l r) main_v151 main_v152
  let main_v154 : FVec F S1x64 .f32 := broadcastInDim S1x64 ![1] bcast_S64_S1x64_1 main_arg17
  let main_v155 : FVec F S4096x64 .f32 := broadcastInDim S4096x64 ![0, 1] bcast_S1x64_S4096x64_0_1 main_v154
  let main_v156 : FVec F S4096x64 .f32 := addf main_v153 main_v155
  let main_cst_47 : FVec F S_ .f32 := constant S_ .f32 0x00000000#32
  let main_v157 : FVec F S4096x64 .f32 := broadcastInDim S4096x64 ![] bcast_S_S4096x64 main_cst_47
  let main_v158 : FVec F S4096x64 .f32 := maximumf main_v156 main_v157
  let main_v159 : FVec F S64x256 .f32 := (transpose S64x256 [1, 0] · transposes_S256x64_S64x256_1_0) main_arg18
  let main_v160 : FVec F S4096x256 .f32 := (fun l r => Host.dotGeneral dot_S4096x64_S64x256_S4096x256_1_0_0_1_n_n none l r) main_v158 main_v159
  let main_v161 : FVec F S1x256 .f32 := broadcastInDim S1x256 ![1] bcast_S256_S1x256_1 main_arg19
  let main_v162 : FVec F S4096x256 .f32 := broadcastInDim S4096x256 ![0, 1] bcast_S1x256_S4096x256_0_1 main_v161
  let main_v163 : FVec F S4096x256 .f32 := addf main_v160 main_v162
  let main_v164 : FVec F S4096x128 .f32 := (extractStridedSlice S4096x128 ![0, 0] · slices_S4096x256_S4096x128_0_0) main_v163
  let main_v165 : FVec F S4096x128 .f32 := (extractStridedSlice S4096x128 ![0, 128] · slices_S4096x256_S4096x128_0_128) main_v163
  fn_part9 (F := F) main_arg3 main_v137 main_v164 main_v165

def fn_part7 {F : FTy → Type} [FloatOps F] (main_arg1 : FVec F S4096x2048 .f32) (main_arg2 : FVec F S4096x128 .f32) (main_arg3 : FVec F S4096x128 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v98 : IVec S_ 1) (main_v124 : FVec F S4096x256 .f32) : IVec S_ 1 :=
  let main_v125 : FVec F S4096x128 .f32 := (extractStridedSlice S4096x128 ![0, 0] · slices_S4096x256_S4096x128_0_0) main_v124
  let main_v126 : FVec F S4096x128 .f32 := (extractStridedSlice S4096x128 ![0, 128] · slices_S4096x256_S4096x128_0_128) main_v124
  let main_cst_41 : FVec F S_ .f32 := constant S_ .f32 0x3F000000#32
  let main_v127 : FVec F S4096x128 .f32 := broadcastInDim S4096x128 ![] bcast_S_S4096x128 main_cst_41
  let main_v128 : FVec F S4096x128 .f32 := mulf main_v127 main_v126
  let main_v129 : FVec F S4096x128 .f32 := Host.exp main_v128
  let main_v130 : FVec F S4096x128 .f32 := mulf main_arg2 main_v129
  let main_v131 : FVec F S4096x128 .f32 := addf main_v125 main_v130
  let main_v132 : FVec F S4096x128 .f32 := mulf main_v131 main_v131
  let main_cst_42 : FVec F S_ .f32 := constant S_ .f32 0x00000000#32
  let main_v133 : FVec F S4096 .f32 := (fun x v => Host.reduceAdd x v reducesTo_S4096x128_S4096_d1 h_S_) main_v132 main_cst_42
  let main_cst_43 : FVec F S_ .f32 := constant S_ .f32 0x00000000#32
  let main_v134 : FVec F S4096 .f32 := broadcastInDim S4096 ![] bcast_S_S4096 main_cst_43
  let main_v135 : IVec S4096 1 := cmpf .ogt main_v133 main_v134
  let main_c_44 : IVec S_ 1 := constantI S_ 1 1#1
  let main_v136 : IVec S_ 1 := (fun x v => Host.reduce IntOp.andi x v reducesTo_S4096_S_d0 h_S_) main_v135 main_c_44
  let main_v137 : IVec S_ 1 := andi main_v98 main_v136
  let main_v138 : FVec F S2048x512 .f32 := (transpose S2048x512 [1, 0] · transposes_S512x2048_S2048x512_1_0) main_arg12
  let main_v139 : FVec F S4096x512 .f32 := (fun l r => Host.dotGeneral dot_S4096x2048_S2048x512_S4096x512_1_0_0_1_n_n none l r) main_arg1 main_v138
  let main_v140 : FVec F S1x512 .f32 := broadcastInDim S1x512 ![1] bcast_S512_S1x512_1 main_arg13
  let main_v141 : FVec F S4096x512 .f32 := broadcastInDim S4096x512 ![0, 1] bcast_S1x512_S4096x512_0_1 main_v140
  let main_v142 : FVec F S4096x512 .f32 := addf main_v139 main_v141
  let main_cst_45 : FVec F S_ .f32 := constant S_ .f32 0x00000000#32
  let main_v143 : FVec F S4096x512 .f32 := broadcastInDim S4096x512 ![] bcast_S_S4096x512 main_cst_45
  fn_part8 (F := F) main_arg3 main_arg14 main_arg15 main_arg16 main_arg17 main_arg18 main_arg19 main_v137 main_v142 main_v143

def fn_part6 {F : FTy → Type} [FloatOps F] (main_arg1 : FVec F S4096x2048 .f32) (main_arg2 : FVec F S4096x128 .f32) (main_arg3 : FVec F S4096x128 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v98 : IVec S_ 1) (main_v103 : FVec F S4096x512 .f32) : IVec S_ 1 :=
  let main_cst_38 : FVec F S_ .f32 := constant S_ .f32 0x00000000#32
  let main_v104 : FVec F S4096x512 .f32 := broadcastInDim S4096x512 ![] bcast_S_S4096x512 main_cst_38
  let main_v105 : FVec F S4096x512 .f32 := maximumf main_v103 main_v104
  let main_v106 : FVec F S512x256 .f32 := (transpose S512x256 [1, 0] · transposes_S256x512_S512x256_1_0) main_arg6
  let main_v107 : FVec F S4096x256 .f32 := (fun l r => Host.dotGeneral dot_S4096x512_S512x256_S4096x256_1_0_0_1_n_n none l r) main_v105 main_v106
  let main_v108 : FVec F S1x256 .f32 := broadcastInDim S1x256 ![1] bcast_S256_S1x256_1 main_arg7
  let main_v109 : FVec F S4096x256 .f32 := broadcastInDim S4096x256 ![0, 1] bcast_S1x256_S4096x256_0_1 main_v108
  let main_v110 : FVec F S4096x256 .f32 := addf main_v107 main_v109
  let main_cst_39 : FVec F S_ .f32 := constant S_ .f32 0x00000000#32
  let main_v111 : FVec F S4096x256 .f32 := broadcastInDim S4096x256 ![] bcast_S_S4096x256 main_cst_39
  let main_v112 : FVec F S4096x256 .f32 := maximumf main_v110 main_v111
  let main_v113 : FVec F S256x64 .f32 := (transpose S256x64 [1, 0] · transposes_S64x256_S256x64_1_0) main_arg8
  let main_v114 : FVec F S4096x64 .f32 := (fun l r => Host.dotGeneral dot_S4096x256_S256x64_S4096x64_1_0_0_1_n_n none l r) main_v112 main_v113
  let main_v115 : FVec F S1x64 .f32 := broadcastInDim S1x64 ![1] bcast_S64_S1x64_1 main_arg9
  let main_v116 : FVec F S4096x64 .f32 := broadcastInDim S4096x64 ![0, 1] bcast_S1x64_S4096x64_0_1 main_v115
  let main_v117 : FVec F S4096x64 .f32 := addf main_v114 main_v116
  let main_cst_40 : FVec F S_ .f32 := constant S_ .f32 0x00000000#32
  let main_v118 : FVec F S4096x64 .f32 := broadcastInDim S4096x64 ![] bcast_S_S4096x64 main_cst_40
  let main_v119 : FVec F S4096x64 .f32 := maximumf main_v117 main_v118
  let main_v120 : FVec F S64x256 .f32 := (transpose S64x256 [1, 0] · transposes_S256x64_S64x256_1_0) main_arg10
  let main_v121 : FVec F S4096x256 .f32 := (fun l r => Host.dotGeneral dot_S4096x64_S64x256_S4096x256_1_0_0_1_n_n none l r) main_v119 main_v120
  let main_v122 : FVec F S1x256 .f32 := broadcastInDim S1x256 ![1] bcast_S256_S1x256_1 main_arg11
  let main_v123 : FVec F S4096x256 .f32 := broadcastInDim S4096x256 ![0, 1] bcast_S1x256_S4096x256_0_1 main_v122
  let main_v124 : FVec F S4096x256 .f32 := addf main_v121 main_v123
  fn_part7 (F := F) main_arg1 main_arg2 main_arg3 main_arg12 main_arg13 main_arg14 main_arg15 main_arg16 main_arg17 main_arg18 main_arg19 main_v98 main_v124

def fn_part5 {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S256x64 .f32 := Host.absf main_arg18
  let main_cst_34 : FVec F S_ .f32 := constant S_ .f32 0x7F800000#32
  let main_v90 : FVec F S256x64 .f32 := broadcastInDim S256x64 ![] bcast_S_S256x64 main_cst_34
  let main_v91 : IVec S256x64 1 := cmpf .olt main_v89 main_v90
  let main_c_35 : IVec S_ 1 := constantI S_ 1 1#1
  let main_v92 : IVec S_ 1 := (fun x v => Host.reduce IntOp.andi x v reducesTo_S256x64_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S2048x512 .f32 := (transpose S2048x512 [1, 0] · transposes_S512x2048_S2048x512_1_0) main_arg4
  let main_v100 : FVec F S4096x512 .f32 := (fun l r => Host.dotGeneral dot_S4096x2048_S2048x512_S4096x512_1_0_0_1_n_n none l r) main_arg0 main_v99
  let main_v101 : FVec F S1x512 .f32 := broadcastInDim S1x512 ![1] bcast_S512_S1x512_1 main_arg5
  let main_v102 : FVec F S4096x512 .f32 := broadcastInDim S4096x512 ![0, 1] bcast_S1x512_S4096x512_0_1 main_v101
  let main_v103 : FVec F S4096x512 .f32 := addf main_v100 main_v102
  fn_part6 (F := F) main_arg1 main_arg2 main_arg3 main_arg6 main_arg7 main_arg8 main_arg9 main_arg10 main_arg11 main_arg12 main_arg13 main_arg14 main_arg15 main_arg16 main_arg17 main_arg18 main_arg19 main_v98 main_v103

def fn_part4 {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S64x256 .f32 := Host.absf main_arg16
  let main_cst_30 : FVec F S_ .f32 := constant S_ .f32 0x7F800000#32
  let main_v80 : FVec F S64x256 .f32 := broadcastInDim S64x256 ![] bcast_S_S64x256 main_cst_30
  let main_v81 : IVec S64x256 1 := cmpf .olt main_v79 main_v80
  let main_c_31 : IVec S_ 1 := constantI S_ 1 1#1
  let main_v82 : IVec S_ 1 := (fun x v => Host.reduce IntOp.andi x v reducesTo_S64x256_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v83 main_v84 main_cst_32

def fn_part3 {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S512x2048 .f32 := Host.absf main_arg12
  let main_cst_22 : FVec F S_ .f32 := constant S_ .f32 0x7F800000#32
  let main_v60 : FVec F S512x2048 .f32 := broadcastInDim S512x2048 ![] bcast_S_S512x2048 main_cst_22
  let main_v61 : IVec S512x2048 1 := cmpf .olt main_v59 main_v60
  let main_c_23 : IVec S_ 1 := constantI S_ 1 1#1
  let main_v62 : IVec S_ 1 := (fun x v => Host.reduce IntOp.andi x v reducesTo_S512x2048_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v63 main_v67

def fn_part2 {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v48 main_v49 main_v50

def fn_part1 {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v33

def fn {F : FTy → Type} [FloatOps F] (main_arg0 : FVec F S4096x2048 .f32) (main_arg1 : FVec F S4096x2048 .f32) (main_arg2 : FVec F S4096x128 .f32) (main_arg3 : FVec F S4096x128 .f32) (main_arg4 : FVec F S512x2048 .f32) (main_arg5 : FVec F S512 .f32) (main_arg6 : FVec F S256x512 .f32) (main_arg7 : FVec F S256 .f32) (main_arg8 : FVec F S64x256 .f32) (main_arg9 : FVec F S64 .f32) (main_arg10 : FVec F S256x64 .f32) (main_arg11 : FVec F S256 .f32) (main_arg12 : FVec F S512x2048 .f32) (main_arg13 : FVec F S512 .f32) (main_arg14 : FVec F S256x512 .f32) (main_arg15 : FVec F S256 .f32) (main_arg16 : FVec F S64x256 .f32) (main_arg17 : FVec F S64 .f32) (main_arg18 : FVec F S256x64 .f32) (main_arg19 : FVec F S256 .f32) (main_arg20 : IVec S32768x4 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x2048 : Shape := ⟨2, ![4096, 2048]⟩
abbrev S4096x128 : Shape := ⟨2, ![4096, 128]⟩
abbrev S512x2048 : Shape := ⟨2, ![512, 2048]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S256x64 : Shape := ⟨2, ![256, 64]⟩
abbrev S32768x4 : Shape := ⟨2, ![32768, 4]⟩
abbrev S1x512 : Shape := ⟨2, ![1, 512]⟩
abbrev S1x256 : Shape := ⟨2, ![1, 256]⟩
abbrev S1x64 : Shape := ⟨2, ![1, 64]⟩
abbrev S512x128 : Shape := ⟨2, ![512, 128]⟩
abbrev S512x512 : Shape := ⟨2, ![512, 512]⟩
abbrev S512x256 : Shape := ⟨2, ![512, 256]⟩
abbrev S512x64 : Shape := ⟨2, ![512, 64]⟩
abbrev S4096x4096 : Shape := ⟨2, ![4096, 4096]⟩
abbrev S512x1 : Shape := ⟨2, ![512, 1]⟩
abbrev S32768x1 : Shape := ⟨2, ![32768, 1]⟩
abbrev S32768 : Shape := ⟨1, ![32768]⟩
abbrev S_ : Shape := ⟨0, ![]⟩
abbrev S32768x2 : Shape := ⟨2, ![32768, 2]⟩

abbrev nBuf : Space → Nat
  | .hbm => 114
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x128, .f32⟩
  | .hbm, ⟨3, _⟩ => ⟨S4096x128, .f32⟩
  | .hbm, ⟨4, _⟩ => ⟨S512x2048, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S64x256, .f32⟩
  | .hbm, ⟨9, _⟩ => ⟨S64, .f32⟩
  | .hbm, ⟨10, _⟩ => ⟨S256x64, .f32⟩
  | .hbm, ⟨11, _⟩ => ⟨S256, .f32⟩
  | .hbm, ⟨12, _⟩ => ⟨S512x2048, .f32⟩
  | .hbm, ⟨13, _⟩ => ⟨S512, .f32⟩
  | .hbm, ⟨14, _⟩ => ⟨S256x512, .f32⟩
  | .hbm, ⟨15, _⟩ => ⟨S256, .f32⟩
  | .hbm, ⟨16, _⟩ => ⟨S64x256, .f32⟩
  | .hbm, ⟨17, _⟩ => ⟨S64, .f32⟩
  | .hbm, ⟨18, _⟩ => ⟨S256x64, .f32⟩
  | .hbm, ⟨19, _⟩ => ⟨S256, .f32⟩
  | .hbm, ⟨20, _⟩ => ⟨S32768x4, .i32⟩
  | .hbm, ⟨21, _⟩ => ⟨S1x512, .f32⟩
  | .hbm, ⟨22, _⟩ => ⟨S1x256, .f32⟩
  | .hbm, ⟨23, _⟩ => ⟨S1x64, .f32⟩
  | .hbm, ⟨24, _⟩ => ⟨S1x256, .f32⟩
  | .hbm, ⟨25, _⟩ => ⟨S4096x128, .f32⟩
  | .hbm, ⟨26, _⟩ => ⟨S1x512, .f32⟩
  | .hbm, ⟨27, _⟩ => ⟨S1x256, .f32⟩
  | .hbm, ⟨28, _⟩ => ⟨S1x64, .f32⟩
  | .hbm, ⟨29, _⟩ => ⟨S1x256, .f32⟩
  | .hbm, ⟨30, _⟩ => ⟨S4096x128, .f32⟩
  | .hbm, ⟨31, _⟩ => ⟨S4096x4096, .f32⟩
  | .hbm, ⟨32, _⟩ => ⟨S32768x1, .i32⟩
  | .hbm, ⟨33, _⟩ => ⟨S32768, .i32⟩
  | .hbm, ⟨34, _⟩ => ⟨S32768x1, .i32⟩
  | .hbm, ⟨35, _⟩ => ⟨S32768, .i32⟩
  | .hbm, ⟨36, _⟩ => ⟨S32768x1, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768x1, .i32⟩
  | .hbm, ⟨54, _⟩ => ⟨S32768x2, .i32⟩
  | .hbm, ⟨55, _⟩ => ⟨S32768, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S32768x1, .i32⟩
  | .hbm, ⟨71, _⟩ => ⟨S32768x1, .i32⟩
  | .hbm, ⟨72, _⟩ => ⟨S32768x2, .i32⟩
  | .hbm, ⟨73, _⟩ => ⟨S32768, .f32⟩
  | .hbm, ⟨74, _⟩ => ⟨S_, .f32⟩
  | .hbm, ⟨75, _⟩ => ⟨S32768, .f32⟩
  | .hbm, ⟨76, _⟩ => ⟨S32768, .f32⟩
  | .hbm, ⟨77, _⟩ => ⟨S32768, .f32⟩
  | .hbm, ⟨78, _⟩ => ⟨S_, .f32⟩
  | .hbm, ⟨79, _⟩ => ⟨S32768, .f32⟩
  | .hbm, ⟨80, _⟩ => ⟨S32768, .f32⟩
  | .hbm, ⟨81, _⟩ => ⟨S32768, .f32⟩
  | .hbm, ⟨82, _⟩ => ⟨S_, .f32⟩
  | .hbm, ⟨83, _⟩ => ⟨S32768, .f32⟩
  | .hbm, ⟨84, _⟩ => ⟨S32768, .f32⟩
  | .hbm, ⟨85, _⟩ => ⟨S_, .f32⟩
  | .hbm, ⟨86, _⟩ => ⟨S32768, .f32⟩
  | .hbm, ⟨87, _⟩ => ⟨S32768, .f32⟩
  | .hbm, ⟨88, _⟩ => ⟨S_, .f32⟩
  | .hbm, ⟨89, _⟩ => ⟨S32768, .f32⟩
  | .hbm, ⟨90, _⟩ => ⟨S32768, .f32⟩
  | .hbm, ⟨91, _⟩ => ⟨S32768, .f32⟩
  | .hbm, ⟨92, _⟩ => ⟨S32768, .f32⟩
  | .hbm, ⟨93, _⟩ => ⟨S32768, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S_, .f32⟩
  | .hbm, ⟨99, _⟩ => ⟨S32768, .f32⟩
  | .hbm, ⟨100, _⟩ => ⟨S32768, .f32⟩
  | .hbm, ⟨101, _⟩ => ⟨S_, .f32⟩
  | .hbm, ⟨102, _⟩ => ⟨S32768, .f32⟩
  | .hbm, ⟨103, _⟩ => ⟨S32768, .f32⟩
  | .hbm, ⟨104, _⟩ => ⟨S32768, .f32⟩
  | .hbm, ⟨105, _⟩ => ⟨S_, .f32⟩
  | .hbm, ⟨106, _⟩ => ⟨S32768, .f32⟩
  | .hbm, ⟨107, _⟩ => ⟨S32768, .f32⟩
  | .hbm, ⟨108, _⟩ => ⟨S32768, .f32⟩
  | .hbm, ⟨109, _⟩ => ⟨S32768, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S256x512, .f32⟩
  | .local _ .vmem, ⟨5, _⟩ => ⟨S1x256, .f32⟩
  | .local _ .vmem, ⟨6, _⟩ => ⟨S64x256, .f32⟩
  | .local _ .vmem, ⟨7, _⟩ => ⟨S1x64, .f32⟩
  | .local _ .vmem, ⟨8, _⟩ => ⟨S256x64, .f32⟩
  | .local _ .vmem, ⟨9, _⟩ => ⟨S1x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S1x512, .f32⟩
  | .local _ .vmem, ⟨18, _⟩ => ⟨S256x512, .f32⟩
  | .local _ .vmem, ⟨19, _⟩ => ⟨S1x256, .f32⟩
  | .local _ .vmem, ⟨20, _⟩ => ⟨S64x256, .f32⟩
  | .local _ .vmem, ⟨21, _⟩ => ⟨S1x64, .f32⟩
  | .local _ .vmem, ⟨22, _⟩ => ⟨S256x64, .f32⟩
  | .local _ .vmem, ⟨23, _⟩ => ⟨S1x256, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x512, .f32⟩
  | .local _ .vmem, ⟨33, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_1 : Ref sig .tc := ⟨.hbm, 45, rfl⟩
abbrev main_v22 : Ref sig .tc := ⟨.hbm, 46, rfl⟩
abbrev main_v23 : Ref sig .tc := ⟨.hbm, 47, rfl⟩
abbrev main_c_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_3 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_c_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S512_S1x512 : S512.ShapeCasts S1x512
  shapeCasts_S256_S1x256 : S256.ShapeCasts S1x256
  shapeCasts_S64_S1x64 : S64.ShapeCasts S1x64
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S64x256_S64x256_0_0 : ∀ a, (![0, 0] : Fin 2 → Nat) a + S64x256.size a ≤ S64x256.size a
  h_S64x256 : 0 < S64x256.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S256x64_S256x64_0_0 : ∀ a, (![0, 0] : Fin 2 → Nat) a + S256x64.size a ≤ S256x64.size a
  h_S256x64 : 0 < S256x64.numel
  slices_S512x256_o0_0_S512x128 : S512x256.Slices ![0, 0] S512x128
  slices_S512x256_o0_128_S512x128 : S512x256.Slices ![0, 128] S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  broadcasts_S512x1_S512x128 : S512x1.Broadcasts S512x128
  inb_S512x512_S512x512_0_0 : ∀ a, (![0, 0] : Fin 2 → Nat) a + S512x512.size a ≤ S512x512.size a
  h_S512x512 : 0 < S512x512.numel
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_3 : S32768x4.Slices ![0, 3] S32768x1
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  reducesTo_S32768_S_d0 : S32768.ReducesTo [0] S_
  h_S_ : 0 < S_.numel
  dot_S512x2048_S512x2048_S512x512_1_1_0_0_n_n_wf : DotDims.WF S512x2048 S512x2048 S512x512 [1] [1] [0] [0] [] []
  dot_S512x512_S256x512_S512x256_1_1_0_0_n_n_wf : DotDims.WF S512x512 S256x512 S512x256 [1] [1] [0] [0] [] []
  dot_S512x256_S64x256_S512x64_1_1_0_0_n_n_wf : DotDims.WF S512x256 S64x256 S512x64 [1] [1] [0] [0] [] []
  dot_S512x64_S256x64_S512x256_1_1_0_0_n_n_wf : DotDims.WF S512x64 S256x64 S512x256 [1] [1] [0] [0] [] []
  dot_S512x128_S512x128_S512x512_1_1_0_0_n_n_wf : DotDims.WF S512x128 S512x128 S512x512 [1] [1] [0] [0] [] []
  gather_S4096x4096_S32768x2_S32768_n_01_n_n_01_1_11_wf : GatherDims.WF S4096x4096 S32768x2 S32768 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .f32 = 32 ∨ (Rect.block (s := S4096x128) S512x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .f32 = 32 ∨ (Rect.block (s := S512x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S64x256.size a
  hwx1_5 : ∀ i : grid1.Coords, EltTy.bits .f32 = 32 ∨ (Rect.block (s := S64x256) S64x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x64.size a ≤ S256x64.size a
  hwx1_7 : ∀ i : grid1.Coords, EltTy.bits .f32 = 32 ∨ (Rect.block (s := S256x64) S256x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S4096x128.size a
  hwx1_9 : ∀ i : grid1.Coords, EltTy.bits .f32 = 32 ∨ (Rect.block (s := S4096x128) S512x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S4096x128.size a
  hwx1_10 : ∀ i : grid1.Coords, EltTy.bits .f32 = 32 ∨ (Rect.block (s := S4096x128) S512x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S4096x128.size a
  hwx2_0 : ∀ i : grid2.Coords, EltTy.bits .f32 = 32 ∨ (Rect.block (s := S4096x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S4096x128.size a
  hwx2_1 : ∀ i : grid2.Coords, EltTy.bits .f32 = 32 ∨ (Rect.block (s := S4096x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S64x256_S512x64_1_1_0_0_n_n : DotDims S512x256 S64x256 S512x64 where
  lhsContracting := [1]
  rhsContracting := [1]
  lhsNonContracting := [0]
  rhsNonContracting := [0]
  lhsBatch := []
  rhsBatch := []
  wf := dot_S512x256_S64x256_S512x64_1_1_0_0_n_n_wf
def dot_S512x64_S256x64_S512x256_1_1_0_0_n_n : DotDims S512x64 S256x64 S512x256 where
  lhsContracting := [1]
  rhsContracting := [1]
  lhsNonContracting := [0]
  rhsNonContracting := [0]
  lhsBatch := []
  rhsBatch := []
  wf := dot_S512x64_S256x64_S512x256_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def gather_S4096x4096_S32768x2_S32768_n_01_n_n_01_1_11 : GatherDims S4096x4096 S32768x2 S32768 where
  offsetDims := []
  collapsedSliceDims := [0, 1]
  operandBatchingDims := []
  startIndicesBatchingDims := []
  startIndexMap := [0, 1]
  indexVectorDim := 1
  sliceSizes := ![1, 1]
  wf := gather_S4096x4096_S32768x2_S32768_n_01_n_n_01_1_11_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S64x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S256x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg3) S512x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v9) S512x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v4) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S4096x128 : Shape := ⟨2, ![4096, 128]⟩
abbrev S512x2048 : Shape := ⟨2, ![512, 2048]⟩
abbrev S512 : Shape := ⟨1, ![512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S256x64 : Shape := ⟨2, ![256, 64]⟩
abbrev S32768x4 : Shape := ⟨2, ![32768, 4]⟩
abbrev S2048x512 : Shape := ⟨2, ![2048, 512]⟩
abbrev S4096x512 : Shape := ⟨2, ![4096, 512]⟩
abbrev S1x512 : Shape := ⟨2, ![1, 512]⟩
abbrev S_ : Shape := ⟨0, ![]⟩
abbrev S512x256 : Shape := ⟨2, ![512, 256]⟩
abbrev S4096x256 : Shape := ⟨2, ![4096, 256]⟩
abbrev S1x256 : Shape := ⟨2, ![1, 256]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩
abbrev S128x4096 : Shape := ⟨2, ![128, 4096]⟩
abbrev S4096x4096 : Shape := ⟨2, ![4096, 4096]⟩
abbrev S32768x1 : Shape := ⟨2, ![32768, 1]⟩
abbrev S32768 : Shape := ⟨1, ![32768]⟩
abbrev S32768x2 : Shape := ⟨2, ![32768, 2]⟩

abbrev nBuf : Space → Nat
  | .hbm => 193
  | .vmem => 0
  | .smem => 0
  | _ => 0

abbrev hbmTy0_0 (i : Nat) : BufTy := match i % 128 with
  | 0 => ⟨S4096x2048, .f32⟩
  | 1 => ⟨S4096x2048, .f32⟩
  | 2 => ⟨S4096x128, .f32⟩
  | 3 => ⟨S4096x128, .f32⟩
  | 4 => ⟨S512x2048, .f32⟩
  | 5 => ⟨S512, .f32⟩
  | 6 => ⟨S256x512, .f32⟩
  | 7 => ⟨S256, .f32⟩
  | 8 => ⟨S64x256, .f32⟩
  | 9 => ⟨S64, .f32⟩
  | 10 => ⟨S256x64, .f32⟩
  | 11 => ⟨S256, .f32⟩
  | 12 => ⟨S512x2048, .f32⟩
  | 13 => ⟨S512, .f32⟩
  | 14 => ⟨S256x512, .f32⟩
  | 15 => ⟨S256, .f32⟩
  | 16 => ⟨S64x256, .f32⟩
  | 17 => ⟨S64, .f32⟩
  | 18 => ⟨S256x64, .f32⟩
  | 19 => ⟨S256, .f32⟩
  | 20 => ⟨S32768x4, .i32⟩
  | 21 => ⟨S2048x512, .f32⟩
  | 22 => ⟨S4096x512, .f32⟩
  | 23 => ⟨S1x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S512x256, .f32⟩
  | 30 => ⟨S4096x256, .f32⟩
  | 31 => ⟨S1x256, .f32⟩
  | 32 => ⟨S4096x256, .f32⟩
  | 33 => ⟨S4096x256, .f32⟩
  | 34 => ⟨S_, .f32⟩
  | 35 => ⟨S4096x256, .f32⟩
  | 36 => ⟨S4096x256, .f32⟩
  | 37 => ⟨S256x64, .f32⟩
  | 38 => ⟨S4096x64, .f32⟩
  | 39 => ⟨S1x64, .f32⟩
  | 40 => ⟨S4096x64, .f32⟩
  | 41 => ⟨S4096x64, .f32⟩
  | 42 => ⟨S_, .f32⟩
  | 43 => ⟨S4096x64, .f32⟩
  | 44 => ⟨S4096x64, .f32⟩
  | 45 => ⟨S64x256, .f32⟩
  | 46 => ⟨S4096x256, .f32⟩
  | 47 => ⟨S1x256, .f32⟩
  | 48 => ⟨S4096x256, .f32⟩
  | 49 => ⟨S4096x256, .f32⟩
  | 50 => ⟨S4096x128, .f32⟩
  | 51 => ⟨S4096x128, .f32⟩
  | 52 => ⟨S_, .f32⟩
  | 53 => ⟨S4096x128, .f32⟩
  | 54 => ⟨S4096x128, .f32⟩
  | 55 => ⟨S4096x128, .f32⟩
  | 56 => ⟨S4096x128, .f32⟩
  | 57 => ⟨S4096x128, .f32⟩
  | 58 => ⟨S2048x512, .f32⟩
  | 59 => ⟨S4096x512, .f32⟩
  | 60 => ⟨S1x512, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S512x256, .f32⟩
  | 67 => ⟨S4096x256, .f32⟩
  | 68 => ⟨S1x256, .f32⟩
  | 69 => ⟨S4096x256, .f32⟩
  | 70 => ⟨S4096x256, .f32⟩
  | 71 => ⟨S_, .f32⟩
  | 72 => ⟨S4096x256, .f32⟩
  | 73 => ⟨S4096x256, .f32⟩
  | 74 => ⟨S256x64, .f32⟩
  | 75 => ⟨S4096x64, .f32⟩
  | 76 => ⟨S1x64, .f32⟩
  | 77 => ⟨S4096x64, .f32⟩
  | 78 => ⟨S4096x64, .f32⟩
  | 79 => ⟨S_, .f32⟩
  | 80 => ⟨S4096x64, .f32⟩
  | 81 => ⟨S4096x64, .f32⟩
  | 82 => ⟨S64x256, .f32⟩
  | 83 => ⟨S4096x256, .f32⟩
  | 84 => ⟨S1x256, .f32⟩
  | 85 => ⟨S4096x256, .f32⟩
  | 86 => ⟨S4096x256, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S4096x128, .f32⟩
  | 93 => ⟨S4096x128, .f32⟩
  | 94 => ⟨S4096x128, .f32⟩
  | 95 => ⟨S4096x128, .f32⟩
  | 96 => ⟨S_, .f32⟩
  | 97 => ⟨S4096, .f32⟩
  | 98 => ⟨S4096x1, .f32⟩
  | 99 => ⟨S4096x1, .f32⟩
  | 100 => ⟨S4096x128, .f32⟩
  | 101 => ⟨S4096x128, .f32⟩
  | 102 => ⟨S4096x128, .f32⟩
  | 103 => ⟨S_, .f32⟩
  | 104 => ⟨S4096, .f32⟩
  | 105 => ⟨S4096x1, .f32⟩
  | 106 => ⟨S4096x1, .f32⟩
  | 107 => ⟨S4096x128, .f32⟩
  | 108 => ⟨S4096x128, .f32⟩
  | 109 => ⟨S128x4096, .f32⟩
  | 110 => ⟨S4096x4096, .f32⟩
  | 111 => ⟨S32768x1, .i32⟩
  | 112 => ⟨S32768, .i32⟩
  | 113 => ⟨S32768x1, .i32⟩
  | 114 => ⟨S32768, .i32⟩
  | 115 => ⟨S32768x1, .i32⟩
  | 116 => ⟨S32768, .i32⟩
  | 117 => ⟨S_, .i32⟩
  | 118 => ⟨S32768, .i32⟩
  | 119 => ⟨S32768, .i1⟩
  | 120 => ⟨S_, .i32⟩
  | 121 => ⟨S32768, .i32⟩
  | 122 => ⟨S32768, .i32⟩
  | 123 => ⟨S32768, .i32⟩
  | 124 => ⟨S_, .i32⟩
  | 125 => ⟨S32768, .i32⟩
  | 126 => ⟨S32768, .i1⟩
  | 127 => ⟨S_, .i32⟩
  | _ => ⟨S4096x2048, .f32⟩

abbrev hbmTy0_1 (i : Nat) : BufTy := match i % 128 with
  | 0 => ⟨S32768, .i32⟩
  | 1 => ⟨S32768, .i32⟩
  | 2 => ⟨S32768, .i32⟩
  | 3 => ⟨S32768x1, .i32⟩
  | 4 => ⟨S32768x1, .i32⟩
  | 5 => ⟨S32768x2, .i32⟩
  | 6 => ⟨S32768, .f32⟩
  | 7 => ⟨S_, .i32⟩
  | 8 => ⟨S32768, .i32⟩
  | 9 => ⟨S32768, .i1⟩
  | 10 => ⟨S_, .i32⟩
  | 11 => ⟨S32768, .i32⟩
  | 12 => ⟨S32768, .i32⟩
  | 13 => ⟨S32768, .i32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x1, .i32⟩
  | 23 => ⟨S32768x2, .i32⟩
  | 24 => ⟨S32768, .f32⟩
  | 25 => ⟨S_, .f32⟩
  | 26 => ⟨S32768, .f32⟩
  | 27 => ⟨S32768, .f32⟩
  | 28 => ⟨S32768, .f32⟩
  | 29 => ⟨S_, .f32⟩
  | 30 => ⟨S32768, .f32⟩
  | 31 => ⟨S32768, .f32⟩
  | 32 => ⟨S32768, .f32⟩
  | 33 => ⟨S_, .f32⟩
  | 34 => ⟨S32768, .f32⟩
  | 35 => ⟨S32768, .f32⟩
  | 36 => ⟨S_, .f32⟩
  | 37 => ⟨S32768, .f32⟩
  | 38 => ⟨S32768, .f32⟩
  | 39 => ⟨S_, .f32⟩
  | 40 => ⟨S32768, .f32⟩
  | 41 => ⟨S32768, .f32⟩
  | 42 => ⟨S32768, .f32⟩
  | 43 => ⟨S32768, .f32⟩
  | 44 => ⟨S32768, .f32⟩
  | 45 => ⟨S32768, .f32⟩
  | 46 => ⟨S_, .f32⟩
  | 47 => ⟨S32768, .f32⟩
  | 48 => ⟨S32768, .f32⟩
  | 49 => ⟨S_, .f32⟩
  | 50 => ⟨S32768, .f32⟩
  | 51 => ⟨S32768, .f32⟩
  | 52 => ⟨S_, .f32⟩
  | 53 => ⟨S32768, .f32⟩
  | 54 => ⟨S32768, .f32⟩
  | 55 => ⟨S32768, .f32⟩
  | 56 => ⟨S_, .f32⟩
  | 57 => ⟨S32768, .f32⟩
  | 58 => ⟨S32768, .f32⟩
  | 59 => ⟨S32768, .f32⟩
  | 60 => ⟨S32768, .f32⟩
  | 61 => ⟨S_, .f32⟩
  | 62 => ⟨S_, .f32⟩
  | 63 => ⟨S_, .f32⟩
  | 64 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_cst : Ref sig .tc := ⟨.hbm, 63, rfl⟩
abbrev main_call3_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call4_cst : Ref sig .tc := ⟨.hbm, 71, rfl⟩
abbrev main_call4_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call5_cst : Ref sig .tc := ⟨.hbm, 79, rfl⟩
abbrev main_call5_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call6_v0 : Ref sig .tc := ⟨.hbm, 95, rfl⟩
abbrev main_call6_cst : Ref sig .tc := ⟨.hbm, 96, rfl⟩
abbrev main_call6_v1 : Ref sig .tc := ⟨.hbm, 97, rfl⟩
abbrev main_call6_v2 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call7_v0 : Ref sig .tc := ⟨.hbm, 102, rfl⟩
abbrev main_call7_cst : Ref sig .tc := ⟨.hbm, 103, rfl⟩
abbrev main_call7_v1 : Ref sig .tc := ⟨.hbm, 104, rfl⟩
abbrev main_call7_v2 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c : Ref sig .tc := ⟨.hbm, 117, rfl⟩
abbrev main_v74 : Ref sig .tc := ⟨.hbm, 118, rfl⟩
abbrev main_v75 : Ref sig .tc := ⟨.hbm, 119, rfl⟩
abbrev main_c_1 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_2 : Ref sig .tc := ⟨.hbm, 124, rfl⟩
abbrev main_v79 : Ref sig .tc := ⟨.hbm, 125, rfl⟩
abbrev main_v80 : Ref sig .tc := ⟨.hbm, 126, rfl⟩
abbrev main_c_3 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_4 : Ref sig .tc := ⟨.hbm, 135, rfl⟩
abbrev main_v88 : Ref sig .tc := ⟨.hbm, 136, rfl⟩
abbrev main_v89 : Ref sig .tc := ⟨.hbm, 137, rfl⟩
abbrev main_c_5 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_6 : Ref sig .tc := ⟨.hbm, 142, rfl⟩
abbrev main_v93 : Ref sig .tc := ⟨.hbm, 143, rfl⟩
abbrev main_v94 : Ref sig .tc := ⟨.hbm, 144, rfl⟩
abbrev main_c_7 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_8 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_9 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_10 : Ref sig .tc := ⟨.hbm, 161, rfl⟩
abbrev main_v108 : Ref sig .tc := ⟨.hbm, 162, rfl⟩
abbrev main_v109 : Ref sig .tc := ⟨.hbm, 163, rfl⟩
abbrev main_cst_11 : Ref sig .tc := ⟨.hbm, 164, rfl⟩
abbrev main_v110 : Ref sig .tc := ⟨.hbm, 165, rfl⟩
abbrev main_v111 : Ref sig .tc := ⟨.hbm, 166, rfl⟩
abbrev main_cst_12 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_13 : Ref sig .tc := ⟨.hbm, 174, rfl⟩
abbrev main_v118 : Ref sig .tc := ⟨.hbm, 175, rfl⟩
abbrev main_v119 : Ref sig .tc := ⟨.hbm, 176, rfl⟩
abbrev main_cst_14 : Ref sig .tc := ⟨.hbm, 177, rfl⟩
abbrev main_v120 : Ref sig .tc := ⟨.hbm, 178, rfl⟩
abbrev main_v121 : Ref sig .tc := ⟨.hbm, 179, rfl⟩
abbrev main_cst_15 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_16 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_17 : Ref sig .tc := ⟨.hbm, 189, rfl⟩
abbrev main_v129 : Ref sig .tc := ⟨.hbm, 190, rfl⟩
abbrev main_cst_18 : Ref sig .tc := ⟨.hbm, 191, rfl⟩
abbrev main_v130 : Ref sig .tc := ⟨.hbm, 192, rfl⟩

abbrev nD : Nat := 1
abbrev τ : Topo := Topo.v7x

variable {F : FTy → Type} [FloatOps F]

class Facts₀ : Prop where
  transposes_S512x2048_S2048x512_1_0 : S512x2048.Transposes [1, 0] S2048x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S64x256_S256x64_1_0 : S64x256.Transposes [1, 0] S256x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S256x64_S64x256_1_0 : S256x64.Transposes [1, 0] S64x256
  slices_S4096x256_S4096x128_0_0 : S4096x256.Slices ![0, 0] S4096x128
  slices_S4096x256_S4096x128_0_128 : S4096x256.Slices ![0, 128] S4096x128
  bcast_S_S4096x128 : S_.BroadcastsInDim S4096x128 (![] : Fin 0 → Fin S4096x128.rank)
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_3 : S32768x4.Slices ![0, 3] S32768x1
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  reducesTo_S32768_S_d0 : S32768.ReducesTo [0] S_
  dot_S4096x2048_S2048x512_S4096x512_1_0_0_1_n_n_wf : DotDims.WF S4096x2048 S2048x512 S4096x512 [1] [0] [0] [1] [] []
  dot_S4096x512_S512x256_S4096x256_1_0_0_1_n_n_wf : DotDims.WF S4096x512 S512x256 S4096x256 [1] [0] [0] [1] [] []
  dot_S4096x256_S256x64_S4096x64_1_0_0_1_n_n_wf : DotDims.WF S4096x256 S256x64 S4096x64 [1] [0] [0] [1] [] []
  dot_S4096x64_S64x256_S4096x256_1_0_0_1_n_n_wf : DotDims.WF S4096x64 S64x256 S4096x256 [1] [0] [0] [1] [] []
  dot_S4096x128_S128x4096_S4096x4096_1_0_0_1_n_n_wf : DotDims.WF S4096x128 S128x4096 S4096x4096 [1] [0] [0] [1] [] []
  gather_S4096x4096_S32768x2_S32768_n_01_n_n_01_1_11_wf : GatherDims.WF S4096x4096 S32768x2 S32768 [] [0, 1] [] [0, 1] [] 1 ![1, 1]

variable [Facts₀]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def gather_S4096x4096_S32768x2_S32768_n_01_n_n_01_1_11 : GatherDims S4096x4096 S32768x2 S32768 where
  offsetDims := []
  collapsedSliceDims := [0, 1]
  operandBatchingDims := []
  startIndicesBatchingDims := []
  startIndexMap := [0, 1]
  indexVectorDim := 1
  sliceSizes := ![1, 1]
  wf := gather_S4096x4096_S32768x2_S32768_n_01_n_n_01_1_11_wf

class Facts : Prop extends Facts₀ where

variable [Facts]
-- ==== Proof.Spec.lean ====
/-
  The two encoders and the cosine matrix, one row at a time, on the extended reals.

  A dense layer sends a row h of k numbers to the o numbers  (∑ q, h q · W a q) + b a.  The encoder is three such
  layers, each followed by the maximum with zero, a fourth without it whose 256 outputs are read as two halves
  (mean, log-variance), and the reparametrisation  mean q + eps q · exp (½ · logvar q).  Entry (p, j) of the cosine
  matrix pairs row p of one latent array with row j of the other: each row is scaled to unit length and the two are
  multiplied entry by entry and summed.  One program scales a row by the reciprocal square root of its sum of
  squares, the other divides it by the square root; for a positive sum of squares these are one number, and that is
  the only law the comparison needs.
-/
import Idealize.ShloMosaic.Lib.ValueIdx
import Idealize.ShloMosaic.PureOps.Ideal.Laws

noncomputable section

namespace Cert.Spec

open Idealize.ShloMosaic

/-- The maximum with the zero word (the activation between two layers). -/
def relu0 (x : EReal) : EReal := max x (Ideal.ofBits .f32 0x00000000#32)

/-- One dense layer at output unit a: the row against row a of the weights, plus the bias. -/
def layer {k o : ℕ} (W : Fin o → Fin k → EReal) (b : Fin o → EReal) (h : Fin k → EReal) (a : Fin o) : EReal :=
  (∑ q : Fin k, h q * W a q) + b a

/-- The fourth layer's 256 outputs of one input row: three activated layers, then a plain one. -/
def outRow (W1 : Fin 512 → Fin 2048 → EReal) (b1 : Fin 512 → EReal) (W2 : Fin 256 → Fin 512 → EReal) (b2 : Fin 256 → EReal)
    (W3 : Fin 64 → Fin 256 → EReal) (b3 : Fin 64 → EReal) (W4 : Fin 256 → Fin 64 → EReal) (b4 : Fin 256 → EReal)
    (xr : Fin 2048 → EReal) : Fin 256 → EReal :=
  layer W4 b4 (fun c => relu0 (layer W3 b3 (fun b => relu0 (layer W2 b2 (fun a => relu0 (layer W1 b1 xr a)) b)) c))

/-- One latent row: mean plus noise times exp of half the log-variance; the mean is the first half of the fourth
    layer's outputs and the log-variance the second half. -/
def encRow (W1 : Fin 512 → Fin 2048 → EReal) (b1 : Fin 512 → EReal) (W2 : Fin 256 → Fin 512 → EReal) (b2 : Fin 256 → EReal)
    (W3 : Fin 64 → Fin 256 → EReal) (b3 : Fin 64 → EReal) (W4 : Fin 256 → Fin 64 → EReal) (b4 : Fin 256 → EReal)
    (xr : Fin 2048 → EReal) (er : Fin 128 → EReal) (q : Fin 128) : EReal :=
  outRow W1 b1 W2 b2 W3 b3 W4 b4 xr ⟨q.val, by omega⟩
    + er q * Ideal.exp (Ideal.ofBits .f32 0x3F000000#32 * outRow W1 b1 W2 b2 W3 b3 W4 b4 xr ⟨128 + q.val, by omega⟩)

/-- A row's sum of squares. -/
def rowss {n : ℕ} (z : Fin n → EReal) : EReal := ∑ r : Fin n, z r * z r

/-- Two rows, each scaled by the reciprocal square root of its sum of squares, multiplied and summed. -/
def cosK {n : ℕ} (mr dr : Fin n → EReal) : EReal :=
  ∑ q : Fin n, (mr q * Ideal.rsqrt (rowss mr)) * (dr q * Ideal.rsqrt (rowss dr))

/-- Two rows, each divided by the square root of its sum of squares, multiplied and summed. -/
def cosR {n : ℕ} (mr dr : Fin n → EReal) : EReal :=
  ∑ q : Fin n, Ideal.div (mr q) (Ideal.sqrt (rowss mr)) * Ideal.div (dr q) (Ideal.sqrt (rowss dr))

/-- For a positive s — finite or +∞ — multiplying by the reciprocal square root of s is dividing by its square root:
    for a real s both are x · (√s)⁻¹, and at +∞ both are x · 0.  No condition on x. -/
theorem mul_rsqrt_eq_div_sqrt (x s : EReal) (hs : 0 < s) : x * Ideal.rsqrt s = Ideal.div x (Ideal.sqrt s) := by
  induction s using EReal.rec with
  | bot => exact absurd hs (by simp)
  | top =>
    have h0 : ((⊤ : EReal) = 0) = False := by simp
    simp only [Ideal.rsqrt_top, Ideal.sqrt_top, Ideal.div, h0, if_false, EReal.inv_top]
  | coe r =>
    have hr : 0 < r := by exact_mod_cast hs
    have hsq : 0 < Real.sqrt r := Real.sqrt_pos.2 hr
    have hne : ((Real.sqrt r : ℝ) : EReal) ≠ 0 := by exact_mod_cast hsq.ne'
    rw [Ideal.rsqrt_coe, Ideal.sqrt_coe, if_neg (not_lt.2 hr.le), if_neg hr.ne', if_neg (not_lt.2 hr.le)]
    unfold Ideal.div
    rw [if_neg hne, EReal.coe_inv]

/-- With both rows' sums of squares positive the two cosine entries are one number. -/
theorem cosR_eq_cosK {n : ℕ} (mr dr : Fin n → EReal) (hm : 0 < rowss mr) (hd : 0 < rowss dr) : cosR mr dr = cosK mr dr := by
  unfold cosR cosK
  refine Finset.sum_congr rfl fun q _ => ?_
  rw [mul_rsqrt_eq_div_sqrt _ _ hm, mul_rsqrt_eq_div_sqrt _ _ hd]

end Cert.Spec

end
-- ==== Proof.KernelRun.lean ====
/-
  The kernel program's run with its three results named.

  @main is six stretches: four reshapes of bias vectors to rows, the first encoder, four more reshapes, the second
  encoder, the cosine kernel, and the loss computed on the host.  The buffer contents at each boundary are a fold
  from the launch memory (`Gen.W0` … `Gen.W6`); every weakly fair execution ends with every unscoped buffer at the
  last boundary's contents.  The frame statement keeps of this only that the arguments end as launched; kept here as
  well: the loss and the two latent arrays end at what the last boundary holds at their buffers.
-/
import proofs.«138127_j29188597743707_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the loss, the first and the second latent array
    end at the last boundary's contents of their buffers, and every argument array ends as launched. -/
theorem run_values : θ_run defs (onTc (τ := τ) (main (F := F))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_v4) = W6 m ρ c (Proc.devRef .tc main_v4)
      ∧ r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v73 (by decide)),
       h c _ (mem_uc main_v4 (by decide)),
       h c _ (mem_uc main_v9 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c)⟩)

end Cert.KernelIdeal.Run

end
-- ==== Proof.LibTransposedDot.lean ====
/-
  A matrix product whose right operand is contracted on its LAST axis, read at an entry, at the ideal instance.

  For dimension numbers that contract the left operand's columns with the right operand's columns and have no batch
  axis (`DotDims.transposedRhs m k n`: an m×k matrix against an n×k one, "a · bᵀ"), the kernel's product into a zero
  accumulator and the host's `dot_general` are, at entry (p, j), the sum over q < k of l (p, q) · r (j, q) on the
  extended reals.  Stated for any record equal to that one, so that a printed record (a definition of its own) can
  be cited by `rfl`.  General lemma: any extents, any float formats of the operands.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    (p, j) written by coordinates: the left operand at (p, q), the right one at (j, q). -/
theorem sum_transposedRhs (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry (p, j). -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposedRhs l r p j

/-- The host's `dot_general` with the same dimension numbers, at entry (p, j). -/
theorem dotGeneral_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    Host.dotGeneral D prec l r (ix2 p j) = ∑ q : Fin k, l (ix2 p q) * r (ix2 j q) := by
  subst hD
  simp only [Host.dotGeneral]
  rw [Ideal.dotGeneral_apply]
  exact sum_transposedRhs l r p j

end Cert.TransposedDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.EncPayload.lean ====
/-
  What one grid point of an encoder stores, entry by entry.

  A point holds 512 rows of the features and of the noise, all four weight matrices and the four bias rows.  Row r of
  what it stores depends only on row r of the features and of the noise: each layer is the row against every row of
  the weights (a product contracted over both operands' last axis) plus the bias row, the first three followed by the
  maximum with zero; the narrowings to a shorter format before each product are the identity on the extended reals.
  So the stored block is, row by row, the row function `Cert.Spec.encRow`.
-/
import proofs.«138127_j29188597743707_1_alg».proof.Proof.Gen.KernelIdeal.Skeleton
import proofs.«138127_j29188597743707_1_alg».proof.Proof.Spec
import proofs.«138127_j29188597743707_1_alg».proof.Proof.LibTransposedDot
import proofs.«138127_j29188597743707_1_alg».proof.Proof.LibRowBroadcast
import Idealize.ShloMosaic.Lib.Pipeline.Value
import Idealize.ShloMosaic.Lib.ValueIdx

noncomputable section

namespace Cert.KernelIdeal.EncValue

open Idealize.ShloMosaic Idealize.ShloMosaic.ValueIdx Cert.KernelIdeal Cert.KernelIdeal.Gen

/-- A dense layer on a block of n rows, read at row r and output unit a: the row of the block against row a of the
    weights, plus entry a of the bias row. -/
theorem dense_apply {n k o : ℕ} (D : DotDims ⟨2, ![n, k]⟩ ⟨2, ![o, k]⟩ ⟨2, ![n, o]⟩) (hD : D = DotDims.transposedRhs n k o)
    (h : FVec Ideal ⟨2, ![n, k]⟩ .f32) (W : FVec Ideal ⟨2, ![o, k]⟩ .f32) (b : (⟨2, ![1, o]⟩ : Shape).Idx → EReal)
    (hlt : FTy.bits .bf16 < FTy.bits .f32) (hs : (⟨2, ![1, o]⟩ : Shape).ShapeCasts ⟨2, ![1, o]⟩)
    (hb : (⟨2, ![1, o]⟩ : Shape).Broadcasts ⟨2, ![n, o]⟩) (r : Fin n) (a : Fin o) :
    addf (matmul D none (truncf .bf16 h hlt) (truncf .bf16 W hlt) (constant (F := Ideal) ⟨2, ![n, o]⟩ .f32 0x00000000#32))
        (broadcastTo ⟨2, ![n, o]⟩ (shapeCast ⟨2, ![1, o]⟩ b hs) hb) (ix2 r a)
      = Cert.Spec.layer (fun a q => W (ix2 a q)) (fun a => b (ix2 (0 : Fin 1) a)) (fun q => h (ix2 r q)) a := by
  rw [addf_apply, Cert.TransposedDot.matmul_zero_ix2 D hD, shapeCast_self, Cert.LibRowBroadcast.broadcastTo_1b_ab_apply]
  rfl

/-- The maximum with a splat of the zero word, read at an index. -/
theorem relu_apply {s : Shape} (v : FVec Ideal s .f32) (i : s.Idx) :
    maximumf v (broadcast s (FloatOps.ofBits (F := Ideal) .f32 0x00000000#32)) i = Cert.Spec.relu0 (v i) := rfl

/-- Columns off … off + w - 1 of a matrix, read at (r, q): the matrix at (r, off + q). -/
theorem slice_cols_apply {α : Type} {n w W : ℕ} (off : ℕ) (x : (⟨2, ![n, W]⟩ : Shape).Idx → α)
    (h : (⟨2, ![n, W]⟩ : Shape).Slices ![0, off] ⟨2, ![n, w]⟩) (r : Fin n) (q : Fin w) (k : Fin W) (hk : k.val = off + q.val) :
    extractStridedSlice ⟨2, ![n, w]⟩ ![0, off] x h (ix2 r q) = x (ix2 r k) :=
  extractStridedSlice_apply _ x h (ix2 r q) (ix2 r k) fun a => by
    match a with
    | ⟨0, _⟩ => show r.val = 0 + r.val; omega
    | ⟨1, _⟩ => show k.val = off + q.val; exact hk

variable (x0 : Vec Ideal S512x2048 .f32) (x1 : Vec Ideal S512x2048 .f32) (x2 : Vec Ideal S1x512 .f32)
  (x3 : Vec Ideal S256x512 .f32) (x4 : Vec Ideal S1x256 .f32) (x5 : Vec Ideal S64x256 .f32) (x6 : Vec Ideal S1x64 .f32)
  (x7 : Vec Ideal S256x64 .f32) (x8 : Vec Ideal S1x256 .f32) (x9 : Vec Ideal S512x128 .f32)

/-- The fourth layer's outputs of row r of a block, from the block's loads. -/
theorem out_apply (r : Fin 512) (a : Fin 256) :
    addf (k0_pay2 x0 x1 x2 x3 x4 x5 x6 x7)
        (broadcastTo S512x256 (shapeCast S1x256 x8 shapeCasts_S1x256_S1x256) broadcasts_S1x256_S512x256) (ix2 r a)
      = Cert.Spec.outRow (fun a k => x1 (ix2 a k)) (fun a => x2 (ix2 (0 : Fin 1) a)) (fun a k => x3 (ix2 a k))
          (fun a => x4 (ix2 (0 : Fin 1) a)) (fun a k => x5 (ix2 a k)) (fun a => x6 (ix2 (0 : Fin 1) a))
          (fun a k => x7 (ix2 a k)) (fun a => x8 (ix2 (0 : Fin 1) a)) (fun k => x0 (ix2 r k)) a := by
  unfold k0_pay2
  dsimp only
  rw [dense_apply dot_S512x64_S256x64_S512x256_1_1_0_0_n_n rfl]
  unfold Cert.Spec.outRow
  refine congrArg (fun h => Cert.Spec.layer _ _ h a) (funext fun c => ?_)
  rw [relu_apply, dense_apply dot_S512x256_S64x256_S512x64_1_1_0_0_n_n rfl]
  refine congrArg (fun h => Cert.Spec.relu0 (Cert.Spec.layer _ _ h c)) (funext fun b => ?_)
  rw [relu_apply, dense_apply dot_S512x512_S256x512_S512x256_1_1_0_0_n_n rfl]
  refine congrArg (fun h => Cert.Spec.relu0 (Cert.Spec.layer _ _ h b)) (funext fun a' => ?_)
  rw [relu_apply, dense_apply dot_S512x2048_S512x2048_S512x512_1_1_0_0_n_n rfl]

/-- The block a point of the FIRST encoder stores, at row r and column q: the latent row function of row r of the
    features and of the noise. -/
theorem enc_pay (r : Fin 512) (q : Fin 128) :
    k0_pay1 (k0_pay2 x0 x1 x2 x3 x4 x5 x6 x7) x8 x9 (ix2 r q)
      = Cert.Spec.encRow (fun a k => x1 (ix2 a k)) (fun a => x2 (ix2 (0 : Fin 1) a)) (fun a k => x3 (ix2 a k))
          (fun a => x4 (ix2 (0 : Fin 1) a)) (fun a k => x5 (ix2 a k)) (fun a => x6 (ix2 (0 : Fin 1) a))
          (fun a k => x7 (ix2 a k)) (fun a => x8 (ix2 (0 : Fin 1) a)) (fun k => x0 (ix2 r k)) (fun q => x9 (ix2 r q)) q := by
  unfold k0_pay1
  rw [addf_apply, mulf_apply]
  show extractStridedSlice _ _ _ _ (ix2 r q)
      + x9 (ix2 r q) * Ideal.exp (Ideal.ofBits .f32 0x3F000000#32 * extractStridedSlice _ _ _ _ (ix2 r q)) = _
  rw [slice_cols_apply 0 _ _ r q ⟨q.val, by omega⟩ (by simp), slice_cols_apply 128 _ _ r q ⟨128 + q.val, by omega⟩ rfl]
  rw [out_apply, out_apply]
  rfl

/-- The second encoder's body is the same text: its payloads are the first one's. -/
theorem enc_pay' (r : Fin 512) (q : Fin 128) :
    k1_pay1 (k1_pay2 x0 x1 x2 x3 x4 x5 x6 x7) x8 x9 (ix2 r q)
      = Cert.Spec.encRow (fun a k => x1 (ix2 a k)) (fun a => x2 (ix2 (0 : Fin 1) a)) (fun a k => x3 (ix2 a k))
          (fun a => x4 (ix2 (0 : Fin 1) a)) (fun a k => x5 (ix2 a k)) (fun a => x6 (ix2 (0 : Fin 1) a))
          (fun a k => x7 (ix2 a k)) (fun a => x8 (ix2 (0 : Fin 1) a)) (fun k => x0 (ix2 r k)) (fun q => x9 (ix2 r q)) q :=
  (show k1_pay1 (k1_pay2 x0 x1 x2 x3 x4 x5 x6 x7) x8 x9 (ix2 r q) = k0_pay1 (k0_pay2 x0 x1 x2 x3 x4 x5 x6 x7) x8 x9 (ix2 r q) from rfl).trans
    (enc_pay x0 x1 x2 x3 x4 x5 x6 x7 x8 x9 r q)

end Cert.KernelIdeal.EncValue

end
-- ==== Proof.Region0.lean ====
/-
  Encoder one: from the blocks its grid points store to the whole latent array.

  The grid has 8 points; point t holds rows 512·t … 512·t + 511 of the features and of the noise and the whole of every
  weight and bias array, and writes back rows 512·t … 512·t + 511 of the latent array.  What it writes is, row by row,
  the latent row function of that row of the features and of the noise (the stored block, read entry by entry).  The
  8 row blocks tile the 4096 rows, so after the last point every entry (p, q) of the latent array is the row function
  of row p — whatever contents the region found in its input arrays.
-/
import proofs.«138127_j29188597743707_1_alg».proof.Proof.Gen.KernelIdeal.Frame
import proofs.«138127_j29188597743707_1_alg».proof.Proof.EncPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The latent array the region leaves, entry by entry, from the contents it finds in its input arrays. -/
def G (c : Dev nD) : S4096x128.Idx → EReal := fun i =>
  Cert.Spec.encRow (fun a k => (V c main_arg4 : S512x2048.Idx → EReal) (ix2 a k)) (fun a => (V c main_v0 : S1x512.Idx → EReal) (ix2 (0 : Fin 1) a))
    (fun a k => (V c main_arg6 : S256x512.Idx → EReal) (ix2 a k)) (fun a => (V c main_v1 : S1x256.Idx → EReal) (ix2 (0 : Fin 1) a))
    (fun a k => (V c main_arg8 : S64x256.Idx → EReal) (ix2 a k)) (fun a => (V c main_v2 : S1x64.Idx → EReal) (ix2 (0 : Fin 1) a))
    (fun a k => (V c main_arg10 : S256x64.Idx → EReal) (ix2 a k)) (fun a => (V c main_v3 : S1x256.Idx → EReal) (ix2 (0 : Fin 1) a))
    (fun k => (V c main_arg0 : S4096x2048.Idx → EReal) (ix2 (i 0 : Fin 4096) k)) (fun q => (V c main_arg2 : S4096x128.Idx → EReal) (ix2 (i 0 : Fin 4096) q))
    (i 1 : Fin 128)

/-- The printed index maps, decided once over the grid: the features', the noise's and the output's blocks are row
    block t; every weight and bias window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- WHAT POINT t WRITES BACK is block t of G of the contents the region found. -/
theorem flushed_eq (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  unfold out0_10
  rw [View.canon_unit_zero hz]
  simp only [View.ld_unit_zero (S := S512x2048) hz, View.ld_unit_zero (S := S1x512) hz, View.ld_unit_zero (S := S256x512) hz,
    View.ld_unit_zero (S := S1x256) hz, View.ld_unit_zero (S := S64x256) hz, View.ld_unit_zero (S := S1x64) hz,
    View.ld_unit_zero (S := S256x64) hz, View.ld_unit_zero (S := S512x128) hz]
  obtain ⟨e00, e01, e10, e11, e20, e21, e30, e31, e40, e41, e50, e51, e60, e61, e70, e71, e80, e81, e90, e91, eo0, eo1⟩ := idx_facts t
  funext j
  obtain ⟨r, q, rfl⟩ : ∃ (r : Fin 512) (q : Fin 128), j = ix2 r q := ⟨j 0, j 1, eq_ix2 j⟩
  refine (Cert.KernelIdeal.EncValue.enc_pay (iblk0 V c 0 t) (iblk0 V c 1 t) (iblk0 V c 2 t) (iblk0 V c 3 t) (iblk0 V c 4 t)
    (iblk0 V c 5 t) (iblk0 V c 6 t) (iblk0 V c 7 t) (iblk0 V c 8 t) (iblk0 V c 9 t) r q).trans ?_
  show _ = G V c (((cfg0.win 10).blk t).view.emb (ix2 r q))
  have hr : r.val < 512 := r.isLt
  have ht : t.val < 8 := by have h := t.isLt; have hN : cfg0.N = 8 := N_0; omega
  -- the output block's entry (r, q) is entry (512 t + r, q) of the array
  have ho : ((cfg0.win 10).blk t).view.emb (ix2 r q) = ix2 (⟨512 * t.val + r.val, by omega⟩ : Fin 4096) q := by
    funext a; apply Fin.ext
    match a with
    | ⟨0, _⟩ => show win0_10.index t (0 : Fin 2) * 512 + 1 * r.val = 512 * t.val + r.val; rw [eo0]; omega
    | ⟨1, _⟩ => show win0_10.index t (1 : Fin 2) * 128 + 1 * q.val = q.val; rw [eo1]; omega
  rw [ho]
  unfold G
  -- each input block, read where the row function reads it
  have hx : ∀ k : Fin 2048, iblk0 V c 0 t (ix2 r k) = (V c main_arg0 : S4096x2048.Idx → EReal) (ix2 (⟨512 * t.val + r.val, by omega⟩ : Fin 4096) k) := fun k => by
    show (V c main_arg0 : S4096x2048.Idx → EReal) (((cfg0.win 0).blk t).view.emb (ix2 r k)) = _
    refine congrArg (V c main_arg0 : S4096x2048.Idx → EReal) (funext fun a => Fin.ext ?_)
    match a with
    | ⟨0, _⟩ => show win0_0.index t (0 : Fin 2) * 512 + 1 * r.val = 512 * t.val + r.val; rw [e00]; omega
    | ⟨1, _⟩ => show win0_0.index t (1 : Fin 2) * 2048 + 1 * k.val = k.val; rw [e01]; omega
  have he : ∀ k : Fin 128, iblk0 V c 9 t (ix2 r k) = (V c main_arg2 : S4096x128.Idx → EReal) (ix2 (⟨512 * t.val + r.val, by omega⟩ : Fin 4096) k) := fun k => by
    show (V c main_arg2 : S4096x128.Idx → EReal) (((cfg0.win 9).blk t).view.emb (ix2 r k)) = _
    refine congrArg (V c main_arg2 : S4096x128.Idx → EReal) (funext fun a => Fin.ext ?_)
    match a with
    | ⟨0, _⟩ => show win0_9.index t (0 : Fin 2) * 512 + 1 * r.val = 512 * t.val + r.val; rw [e90]; omega
    | ⟨1, _⟩ => show win0_9.index t (1 : Fin 2) * 128 + 1 * k.val = k.val; rw [e91]; omega
  have h1 : ∀ (a : Fin 512) (k : Fin 2048), iblk0 V c 1 t (ix2 a k) = (V c main_arg4 : S512x2048.Idx → EReal) (ix2 a k) := fun a k => by
    show (V c main_arg4 : S512x2048.Idx → EReal) (((cfg0.win 1).blk t).view.emb (ix2 a k)) = _
    refine congrArg (V c main_arg4 : S512x2048.Idx → EReal) (funext fun d => Fin.ext ?_)
    match d with
    | ⟨0, _⟩ => show win0_1.index t (0 : Fin 2) * 512 + 1 * a.val = a.val; rw [e10]; omega
    | ⟨1, _⟩ => show win0_1.index t (1 : Fin 2) * 2048 + 1 * k.val = k.val; rw [e11]; omega
  have h2 : ∀ (a : Fin 512), iblk0 V c 2 t (ix2 (0 : Fin 1) a) = (V c main_v0 : S1x512.Idx → EReal) (ix2 (0 : Fin 1) a) := fun a => by
    show (V c main_v0 : S1x512.Idx → EReal) (((cfg0.win 2).blk t).view.emb (ix2 (0 : Fin 1) a)) = _
    refine congrArg (V c main_v0 : S1x512.Idx → EReal) (funext fun d => Fin.ext ?_)
    match d with
    | ⟨0, _⟩ => show win0_2.index t (0 : Fin 2) * 1 + 1 * 0 = 0; rw [e20]
    | ⟨1, _⟩ => show win0_2.index t (1 : Fin 2) * 512 + 1 * a.val = a.val; rw [e21]; omega
  have h3 : ∀ (a : Fin 256) (k : Fin 512), iblk0 V c 3 t (ix2 a k) = (V c main_arg6 : S256x512.Idx → EReal) (ix2 a k) := fun a k => by
    show (V c main_arg6 : S256x512.Idx → EReal) (((cfg0.win 3).blk t).view.emb (ix2 a k)) = _
    refine congrArg (V c main_arg6 : S256x512.Idx → EReal) (funext fun d => Fin.ext ?_)
    match d with
    | ⟨0, _⟩ => show win0_3.index t (0 : Fin 2) * 256 + 1 * a.val = a.val; rw [e30]; omega
    | ⟨1, _⟩ => show win0_3.index t (1 : Fin 2) * 512 + 1 * k.val = k.val; rw [e31]; omega
  have h4 : ∀ (a : Fin 256), iblk0 V c 4 t (ix2 (0 : Fin 1) a) = (V c main_v1 : S1x256.Idx → EReal) (ix2 (0 : Fin 1) a) := fun a => by
    show (V c main_v1 : S1x256.Idx → EReal) (((cfg0.win 4).blk t).view.emb (ix2 (0 : Fin 1) a)) = _
    refine congrArg (V c main_v1 : S1x256.Idx → EReal) (funext fun d => Fin.ext ?_)
    match d with
    | ⟨0, _⟩ => show win0_4.index t (0 : Fin 2) * 1 + 1 * 0 = 0; rw [e40]
    | ⟨1, _⟩ => show win0_4.index t (1 : Fin 2) * 256 + 1 * a.val = a.val; rw [e41]; omega
  have h5 : ∀ (a : Fin 64) (k : Fin 256), iblk0 V c 5 t (ix2 a k) = (V c main_arg8 : S64x256.Idx → EReal) (ix2 a k) := fun a k => by
    show (V c main_arg8 : S64x256.Idx → EReal) (((cfg0.win 5).blk t).view.emb (ix2 a k)) = _
    refine congrArg (V c main_arg8 : S64x256.Idx → EReal) (funext fun d => Fin.ext ?_)
    match d with
    | ⟨0, _⟩ => show win0_5.index t (0 : Fin 2) * 64 + 1 * a.val = a.val; rw [e50]; omega
    | ⟨1, _⟩ => show win0_5.index t (1 : Fin 2) * 256 + 1 * k.val = k.val; rw [e51]; omega
  have h6 : ∀ (a : Fin 64), iblk0 V c 6 t (ix2 (0 : Fin 1) a) = (V c main_v2 : S1x64.Idx → EReal) (ix2 (0 : Fin 1) a) := fun a => by
    show (V c main_v2 : S1x64.Idx → EReal) (((cfg0.win 6).blk t).view.emb (ix2 (0 : Fin 1) a)) = _
    refine congrArg (V c main_v2 : S1x64.Idx → EReal) (funext fun d => Fin.ext ?_)
    match d with
    | ⟨0, _⟩ => show win0_6.index t (0 : Fin 2) * 1 + 1 * 0 = 0; rw [e60]
    | ⟨1, _⟩ => show win0_6.index t (1 : Fin 2) * 64 + 1 * a.val = a.val; rw [e61]; omega
  have h7 : ∀ (a : Fin 256) (k : Fin 64), iblk0 V c 7 t (ix2 a k) = (V c main_arg10 : S256x64.Idx → EReal) (ix2 a k) := fun a k => by
    show (V c main_arg10 : S256x64.Idx → EReal) (((cfg0.win 7).blk t).view.emb (ix2 a k)) = _
    refine congrArg (V c main_arg10 : S256x64.Idx → EReal) (funext fun d => Fin.ext ?_)
    match d with
    | ⟨0, _⟩ => show win0_7.index t (0 : Fin 2) * 256 + 1 * a.val = a.val; rw [e70]; omega
    | ⟨1, _⟩ => show win0_7.index t (1 : Fin 2) * 64 + 1 * k.val = k.val; rw [e71]; omega
  have h8 : ∀ (a : Fin 256), iblk0 V c 8 t (ix2 (0 : Fin 1) a) = (V c main_v3 : S1x256.Idx → EReal) (ix2 (0 : Fin 1) a) := fun a => by
    show (V c main_v3 : S1x256.Idx → EReal) (((cfg0.win 8).blk t).view.emb (ix2 (0 : Fin 1) a)) = _
    refine congrArg (V c main_v3 : S1x256.Idx → EReal) (funext fun d => Fin.ext ?_)
    match d with
    | ⟨0, _⟩ => show win0_8.index t (0 : Fin 2) * 1 + 1 * 0 = 0; rw [e80]
    | ⟨1, _⟩ => show win0_8.index t (1 : Fin 2) * 256 + 1 * a.val = a.val; rw [e81]; omega
  simp only [hx, he, h1, h2, h3, h4, h5, h6, h7, h8]

/-- An index of the array is in point t's block iff each coordinate is in the block's range on its axis. -/
theorem mem_blk (t : Fin cfg0.N) (i : S4096x128.Idx) :
    i ∈ ((cfg0.win 10).blk t).view.set ↔ ∀ a : Fin 2, win0_10.index t a * S512x128.size a ≤ (i a).val ∧ (i a).val < win0_10.index t a * S512x128.size a + S512x128.size a := by
  show i ∈ ((View.whole main_v4).slice (win0_10.rect t)).set ↔ _
  rw [View.set_slice_whole, Rect.mem_set_unit]
  exact Iff.rfl

/-- Every entry of the latent array lies in the block of the point its row falls in. -/
theorem cover (i : S4096x128.Idx) : ∃ t : Fin cfg0.N, (cfg0.win 10).flush t = true ∧ i ∈ ((cfg0.win 10).blk t).view.set := by
  have hi0 : (i 0).val < 4096 := (i 0).isLt
  have hi1 : (i 1).val < 128 := (i 1).isLt
  have hN : cfg0.N = 8 := N_0
  refine ⟨⟨(i 0).val / 512, by rw [hN]; omega⟩, flush0_10 _, ?_⟩
  rw [mem_blk]
  obtain ⟨-, -, -, -, -, -, -, -, -, -, -, -, -, -, -, -, -, -, -, -, eo0, eo1⟩ := idx_facts ⟨(i 0).val / 512, by rw [hN]; omega⟩
  intro a
  match a with
  | ⟨0, _⟩ => show win0_10.index _ (0 : Fin 2) * 512 ≤ (i 0).val ∧ (i 0).val < win0_10.index _ (0 : Fin 2) * 512 + 512; rw [eo0]; show (i 0).val / 512 * 512 ≤ (i 0).val ∧ (i 0).val < (i 0).val / 512 * 512 + 512; omega
  | ⟨1, _⟩ => show win0_10.index _ (1 : Fin 2) * 128 ≤ (i 1).val ∧ (i 1).val < win0_10.index _ (1 : Fin 2) * 128 + 128; rw [eo1]; omega

/-- THE LATENT ARRAY after the region: G of the contents the region found. -/
theorem final (c : Dev nD) : (dat0 V c).arrAt 10 cfg0.N = G V c :=
  (dat0 V c).arrAt_eq_of_cover 10 (G V c) (fun t _ => flushed_eq V c t) (cover)

end Cert.KernelIdeal.Region0

end
-- ==== Proof.Region1.lean ====
/-
  Encoder two: from the blocks its grid points store to the whole latent array.

  The grid has 8 points; point t holds rows 512·t … 512·t + 511 of the features and of the noise and the whole of every
  weight and bias array, and writes back rows 512·t … 512·t + 511 of the latent array.  What it writes is, row by row,
  the latent row function of that row of the features and of the noise (the stored block, read entry by entry).  The
  8 row blocks tile the 4096 rows, so after the last point every entry (p, q) of the latent array is the row function
  of row p — whatever contents the region found in its input arrays.
-/
import proofs.«138127_j29188597743707_1_alg».proof.Proof.Gen.KernelIdeal.Frame
import proofs.«138127_j29188597743707_1_alg».proof.Proof.EncPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The latent array the region leaves, entry by entry, from the contents it finds in its input arrays. -/
def G (c : Dev nD) : S4096x128.Idx → EReal := fun i =>
  Cert.Spec.encRow (fun a k => (V c main_arg12 : S512x2048.Idx → EReal) (ix2 a k)) (fun a => (V c main_v5 : S1x512.Idx → EReal) (ix2 (0 : Fin 1) a))
    (fun a k => (V c main_arg14 : S256x512.Idx → EReal) (ix2 a k)) (fun a => (V c main_v6 : S1x256.Idx → EReal) (ix2 (0 : Fin 1) a))
    (fun a k => (V c main_arg16 : S64x256.Idx → EReal) (ix2 a k)) (fun a => (V c main_v7 : S1x64.Idx → EReal) (ix2 (0 : Fin 1) a))
    (fun a k => (V c main_arg18 : S256x64.Idx → EReal) (ix2 a k)) (fun a => (V c main_v8 : S1x256.Idx → EReal) (ix2 (0 : Fin 1) a))
    (fun k => (V c main_arg1 : S4096x2048.Idx → EReal) (ix2 (i 0 : Fin 4096) k)) (fun q => (V c main_arg3 : S4096x128.Idx → EReal) (ix2 (i 0 : Fin 4096) q))
    (i 1 : Fin 128)

/-- The printed index maps, decided once over the grid: the features', the noise's and the output's blocks are row
    block t; every weight and bias window is its whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

set_option maxHeartbeats 2000000 in
/-- WHAT POINT t WRITES BACK is block t of G of the contents the region found. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S512x2048) hz, View.ld_unit_zero (S := S1x512) hz, View.ld_unit_zero (S := S256x512) hz,
    View.ld_unit_zero (S := S1x256) hz, View.ld_unit_zero (S := S64x256) hz, View.ld_unit_zero (S := S1x64) hz,
    View.ld_unit_zero (S := S256x64) hz, View.ld_unit_zero (S := S512x128) hz]
  obtain ⟨e00, e01, e10, e11, e20, e21, e30, e31, e40, e41, e50, e51, e60, e61, e70, e71, e80, e81, e90, e91, eo0, eo1⟩ := idx_facts t
  funext j
  obtain ⟨r, q, rfl⟩ : ∃ (r : Fin 512) (q : Fin 128), j = ix2 r q := ⟨j 0, j 1, eq_ix2 j⟩
  refine (Cert.KernelIdeal.EncValue.enc_pay' (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) r q).trans ?_
  show _ = G V c (((cfg1.win 10).blk t).view.emb (ix2 r q))
  have hr : r.val < 512 := r.isLt
  have ht : t.val < 8 := by have h := t.isLt; have hN : cfg1.N = 8 := N_1; omega
  -- the output block's entry (r, q) is entry (512 t + r, q) of the array
  have ho : ((cfg1.win 10).blk t).view.emb (ix2 r q) = ix2 (⟨512 * t.val + r.val, by omega⟩ : Fin 4096) q := by
    funext a; apply Fin.ext
    match a with
    | ⟨0, _⟩ => show win1_10.index t (0 : Fin 2) * 512 + 1 * r.val = 512 * t.val + r.val; rw [eo0]; omega
    | ⟨1, _⟩ => show win1_10.index t (1 : Fin 2) * 128 + 1 * q.val = q.val; rw [eo1]; omega
  rw [ho]
  unfold G
  -- each input block, read where the row function reads it
  have hx : ∀ k : Fin 2048, iblk1 V c 0 t (ix2 r k) = (V c main_arg1 : S4096x2048.Idx → EReal) (ix2 (⟨512 * t.val + r.val, by omega⟩ : Fin 4096) k) := fun k => by
    show (V c main_arg1 : S4096x2048.Idx → EReal) (((cfg1.win 0).blk t).view.emb (ix2 r k)) = _
    refine congrArg (V c main_arg1 : S4096x2048.Idx → EReal) (funext fun a => Fin.ext ?_)
    match a with
    | ⟨0, _⟩ => show win1_0.index t (0 : Fin 2) * 512 + 1 * r.val = 512 * t.val + r.val; rw [e00]; omega
    | ⟨1, _⟩ => show win1_0.index t (1 : Fin 2) * 2048 + 1 * k.val = k.val; rw [e01]; omega
  have he : ∀ k : Fin 128, iblk1 V c 9 t (ix2 r k) = (V c main_arg3 : S4096x128.Idx → EReal) (ix2 (⟨512 * t.val + r.val, by omega⟩ : Fin 4096) k) := fun k => by
    show (V c main_arg3 : S4096x128.Idx → EReal) (((cfg1.win 9).blk t).view.emb (ix2 r k)) = _
    refine congrArg (V c main_arg3 : S4096x128.Idx → EReal) (funext fun a => Fin.ext ?_)
    match a with
    | ⟨0, _⟩ => show win1_9.index t (0 : Fin 2) * 512 + 1 * r.val = 512 * t.val + r.val; rw [e90]; omega
    | ⟨1, _⟩ => show win1_9.index t (1 : Fin 2) * 128 + 1 * k.val = k.val; rw [e91]; omega
  have h1 : ∀ (a : Fin 512) (k : Fin 2048), iblk1 V c 1 t (ix2 a k) = (V c main_arg12 : S512x2048.Idx → EReal) (ix2 a k) := fun a k => by
    show (V c main_arg12 : S512x2048.Idx → EReal) (((cfg1.win 1).blk t).view.emb (ix2 a k)) = _
    refine congrArg (V c main_arg12 : S512x2048.Idx → EReal) (funext fun d => Fin.ext ?_)
    match d with
    | ⟨0, _⟩ => show win1_1.index t (0 : Fin 2) * 512 + 1 * a.val = a.val; rw [e10]; omega
    | ⟨1, _⟩ => show win1_1.index t (1 : Fin 2) * 2048 + 1 * k.val = k.val; rw [e11]; omega
  have h2 : ∀ (a : Fin 512), iblk1 V c 2 t (ix2 (0 : Fin 1) a) = (V c main_v5 : S1x512.Idx → EReal) (ix2 (0 : Fin 1) a) := fun a => by
    show (V c main_v5 : S1x512.Idx → EReal) (((cfg1.win 2).blk t).view.emb (ix2 (0 : Fin 1) a)) = _
    refine congrArg (V c main_v5 : S1x512.Idx → EReal) (funext fun d => Fin.ext ?_)
    match d with
    | ⟨0, _⟩ => show win1_2.index t (0 : Fin 2) * 1 + 1 * 0 = 0; rw [e20]
    | ⟨1, _⟩ => show win1_2.index t (1 : Fin 2) * 512 + 1 * a.val = a.val; rw [e21]; omega
  have h3 : ∀ (a : Fin 256) (k : Fin 512), iblk1 V c 3 t (ix2 a k) = (V c main_arg14 : S256x512.Idx → EReal) (ix2 a k) := fun a k => by
    show (V c main_arg14 : S256x512.Idx → EReal) (((cfg1.win 3).blk t).view.emb (ix2 a k)) = _
    refine congrArg (V c main_arg14 : S256x512.Idx → EReal) (funext fun d => Fin.ext ?_)
    match d with
    | ⟨0, _⟩ => show win1_3.index t (0 : Fin 2) * 256 + 1 * a.val = a.val; rw [e30]; omega
    | ⟨1, _⟩ => show win1_3.index t (1 : Fin 2) * 512 + 1 * k.val = k.val; rw [e31]; omega
  have h4 : ∀ (a : Fin 256), iblk1 V c 4 t (ix2 (0 : Fin 1) a) = (V c main_v6 : S1x256.Idx → EReal) (ix2 (0 : Fin 1) a) := fun a => by
    show (V c main_v6 : S1x256.Idx → EReal) (((cfg1.win 4).blk t).view.emb (ix2 (0 : Fin 1) a)) = _
    refine congrArg (V c main_v6 : S1x256.Idx → EReal) (funext fun d => Fin.ext ?_)
    match d with
    | ⟨0, _⟩ => show win1_4.index t (0 : Fin 2) * 1 + 1 * 0 = 0; rw [e40]
    | ⟨1, _⟩ => show win1_4.index t (1 : Fin 2) * 256 + 1 * a.val = a.val; rw [e41]; omega
  have h5 : ∀ (a : Fin 64) (k : Fin 256), iblk1 V c 5 t (ix2 a k) = (V c main_arg16 : S64x256.Idx → EReal) (ix2 a k) := fun a k => by
    show (V c main_arg16 : S64x256.Idx → EReal) (((cfg1.win 5).blk t).view.emb (ix2 a k)) = _
    refine congrArg (V c main_arg16 : S64x256.Idx → EReal) (funext fun d => Fin.ext ?_)
    match d with
    | ⟨0, _⟩ => show win1_5.index t (0 : Fin 2) * 64 + 1 * a.val = a.val; rw [e50]; omega
    | ⟨1, _⟩ => show win1_5.index t (1 : Fin 2) * 256 + 1 * k.val = k.val; rw [e51]; omega
  have h6 : ∀ (a : Fin 64), iblk1 V c 6 t (ix2 (0 : Fin 1) a) = (V c main_v7 : S1x64.Idx → EReal) (ix2 (0 : Fin 1) a) := fun a => by
    show (V c main_v7 : S1x64.Idx → EReal) (((cfg1.win 6).blk t).view.emb (ix2 (0 : Fin 1) a)) = _
    refine congrArg (V c main_v7 : S1x64.Idx → EReal) (funext fun d => Fin.ext ?_)
    match d with
    | ⟨0, _⟩ => show win1_6.index t (0 : Fin 2) * 1 + 1 * 0 = 0; rw [e60]
    | ⟨1, _⟩ => show win1_6.index t (1 : Fin 2) * 64 + 1 * a.val = a.val; rw [e61]; omega
  have h7 : ∀ (a : Fin 256) (k : Fin 64), iblk1 V c 7 t (ix2 a k) = (V c main_arg18 : S256x64.Idx → EReal) (ix2 a k) := fun a k => by
    show (V c main_arg18 : S256x64.Idx → EReal) (((cfg1.win 7).blk t).view.emb (ix2 a k)) = _
    refine congrArg (V c main_arg18 : S256x64.Idx → EReal) (funext fun d => Fin.ext ?_)
    match d with
    | ⟨0, _⟩ => show win1_7.index t (0 : Fin 2) * 256 + 1 * a.val = a.val; rw [e70]; omega
    | ⟨1, _⟩ => show win1_7.index t (1 : Fin 2) * 64 + 1 * k.val = k.val; rw [e71]; omega
  have h8 : ∀ (a : Fin 256), iblk1 V c 8 t (ix2 (0 : Fin 1) a) = (V c main_v8 : S1x256.Idx → EReal) (ix2 (0 : Fin 1) a) := fun a => by
    show (V c main_v8 : S1x256.Idx → EReal) (((cfg1.win 8).blk t).view.emb (ix2 (0 : Fin 1) a)) = _
    refine congrArg (V c main_v8 : S1x256.Idx → EReal) (funext fun d => Fin.ext ?_)
    match d with
    | ⟨0, _⟩ => show win1_8.index t (0 : Fin 2) * 1 + 1 * 0 = 0; rw [e80]
    | ⟨1, _⟩ => show win1_8.index t (1 : Fin 2) * 256 + 1 * a.val = a.val; rw [e81]; omega
  simp only [hx, he, h1, h2, h3, h4, h5, h6, h7, h8]

/-- An index of the array is in point t's block iff each coordinate is in the block's range on its axis. -/
theorem mem_blk (t : Fin cfg1.N) (i : S4096x128.Idx) :
    i ∈ ((cfg1.win 10).blk t).view.set ↔ ∀ a : Fin 2, win1_10.index t a * S512x128.size a ≤ (i a).val ∧ (i a).val < win1_10.index t a * S512x128.size a + S512x128.size a := by
  show i ∈ ((View.whole main_v9).slice (win1_10.rect t)).set ↔ _
  rw [View.set_slice_whole, Rect.mem_set_unit]
  exact Iff.rfl

/-- Every entry of the latent array lies in the block of the point its row falls in. -/
theorem cover (i : S4096x128.Idx) : ∃ t : Fin cfg1.N, (cfg1.win 10).flush t = true ∧ i ∈ ((cfg1.win 10).blk t).view.set := by
  have hi0 : (i 0).val < 4096 := (i 0).isLt
  have hi1 : (i 1).val < 128 := (i 1).isLt
  have hN : cfg1.N = 8 := N_1
  refine ⟨⟨(i 0).val / 512, by rw [hN]; omega⟩, flush1_10 _, ?_⟩
  rw [mem_blk]
  obtain ⟨-, -, -, -, -, -, -, -, -, -, -, -, -, -, -, -, -, -, -, -, eo0, eo1⟩ := idx_facts ⟨(i 0).val / 512, by rw [hN]; omega⟩
  intro a
  match a with
  | ⟨0, _⟩ => show win1_10.index _ (0 : Fin 2) * 512 ≤ (i 0).val ∧ (i 0).val < win1_10.index _ (0 : Fin 2) * 512 + 512; rw [eo0]; show (i 0).val / 512 * 512 ≤ (i 0).val ∧ (i 0).val < (i 0).val / 512 * 512 + 512; omega
  | ⟨1, _⟩ => show win1_10.index _ (1 : Fin 2) * 128 ≤ (i 1).val ∧ (i 1).val < win1_10.index _ (1 : Fin 2) * 128 + 128; rw [eo1]; omega

/-- THE LATENT ARRAY after the region: G of the contents the region found. -/
theorem final (c : Dev nD) : (dat1 V c).arrAt 10 cfg1.N = G V c :=
  (dat1 V c).arrAt_eq_of_cover 10 (G V c) (fun t _ => flushed_eq V c t) (cover)

end Cert.KernelIdeal.Region1

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.CosPayload.lean ====
/-
  What one grid point of the cosine kernel stores, entry by entry.

  A point holds 512 rows of each latent array.  Each row is multiplied by the reciprocal square root of its own sum of
  squares (the sum taken along the row, reshaped to a column and spread back along the row), and entry (r, c) of the
  stored block is the sum over q of the scaled row r of the first block at q times the scaled row c of the second
  block at q: `Cert.Spec.cosK` of the two rows.  The narrowing before the product is the identity on the extended reals.
-/
import proofs.«138127_j29188597743707_1_alg».proof.Proof.Gen.KernelIdeal.Skeleton
import proofs.«138127_j29188597743707_1_alg».proof.Proof.Spec
import proofs.«138127_j29188597743707_1_alg».proof.Proof.LibTransposedDot
import proofs.«138127_j29188597743707_1_alg».proof.Proof.LibColBroadcast
import proofs.«138127_j29188597743707_1_alg».proof.Proof.LibMatrixLayout
import Idealize.ShloMosaic.Lib.Pipeline.Value
import Idealize.ShloMosaic.Lib.ValueIdx
import Idealize.ShloMosaic.PureOps.Ideal.Laws

noncomputable section

namespace Cert.KernelIdeal.CosValue

open Idealize.ShloMosaic Idealize.ShloMosaic.ValueIdx Cert.KernelIdeal Cert.KernelIdeal.Gen

/-- The index over row r with q inserted on the summed axis is (r, q). -/
theorem lift_row {n k : ℕ} (h : (⟨2, ![n, k]⟩ : Shape).Reduces [(1 : Fin 2)] ⟨1, ![n]⟩) (r : Fin n) (q : Fin k) :
    h.lift (ix1 r) q = ix2 r q :=
  funext fun c => Fin.ext (by
    match c with
    | ⟨0, _⟩ => rfl
    | ⟨1, _⟩ => rfl)

/-- A matrix whose every row is multiplied by the reciprocal square root of that row's sum of squares, read at (r, q). -/
theorem unit_row_apply {n k : ℕ} (z : FVec Ideal ⟨2, ![n, k]⟩ .f32)
    (hred : (⟨2, ![n, k]⟩ : Shape).Reduces [(1 : Fin 2)] ⟨1, ![n]⟩) (hf : FKind.Formats .f32)
    (hacc : (0x00000000#32 : BitVec (FTy.bits .f32)) = FKind.add.neutral .f32 hf)
    (hsc : (⟨1, ![n]⟩ : Shape).ShapeCasts ⟨2, ![n, 1]⟩) (hb : (⟨2, ![n, 1]⟩ : Shape).Broadcasts ⟨2, ![n, k]⟩)
    (r : Fin n) (q : Fin k) :
    mulf z (broadcastTo ⟨2, ![n, k]⟩
        (rsqrt (shapeCast ⟨2, ![n, 1]⟩ (multiReduction .add [(1 : Fin 2)] ⟨1, ![n]⟩ (mulf z z) 0x00000000#32 hred hf hacc) hsc)) hb) (ix2 r q)
      = z (ix2 r q) * Ideal.rsqrt (Cert.Spec.rowss (fun q => z (ix2 r q))) := by
  rw [mulf_apply, Cert.LibColBroadcast.broadcastTo_a1_ab_apply]
  show z (ix2 r q) * Ideal.rsqrt (shapeCast ⟨2, ![n, 1]⟩ _ hsc (ix2 r (0 : Fin 1))) = _
  rw [Cert.LibMatrixLayout.shapeCast_a_a1_apply, Ideal.multiReduction_add_single]
  refine congrArg (fun s => z (ix2 r q) * Ideal.rsqrt s) ?_
  unfold Cert.Spec.rowss
  refine Finset.sum_congr rfl fun t _ => ?_
  rw [lift_row hred r t]
  rfl

/-- Entry (r, c) of the block a point stores: the two scaled rows multiplied and summed. -/
theorem cos_pay (v0 v2 : Vec Ideal S512x128 .f32) (r c : Fin 512) :
    k2_pay1 v0 v2 (ix2 r c) = Cert.Spec.cosK (fun q => v0 (ix2 r q)) (fun q => v2 (ix2 c q)) := by
  unfold k2_pay1
  dsimp only
  simp only [shapeCast_self]
  rw [Cert.TransposedDot.matmul_zero_ix2 dot_S512x128_S512x128_S512x512_1_1_0_0_n_n rfl]
  unfold Cert.Spec.cosK
  refine Finset.sum_congr rfl fun q _ => ?_
  show mulf _ _ (ix2 r q) * mulf _ _ (ix2 c q) = _
  exact congrArg₂ (· * ·) (unit_row_apply v0 _ _ _ _ _ r q) (unit_row_apply v2 _ _ _ _ _ c q)

end Cert.KernelIdeal.CosValue

end
-- ==== Proof.Region2.lean ====
/-
  The cosine kernel: from the blocks its grid points store to the whole 4096 × 4096 matrix.

  The grid is 8 × 8; point t = 8·i + j holds rows 512·i … 512·i + 511 of the first latent array and rows
  512·j … 512·j + 511 of the second, and writes back block (i, j) of the matrix.  Entry (r, c) of what it writes is the
  cosine entry of row r of the first block and row c of the second (the stored block, read entry by entry).  The 64
  blocks tile the matrix, so after the last point entry (p, j) is the cosine entry of row p of the first latent array and
  row j of the second — whatever contents the region found in them.
-/
import proofs.«138127_j29188597743707_1_alg».proof.Proof.Gen.KernelIdeal.Frame
import proofs.«138127_j29188597743707_1_alg».proof.Proof.CosPayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The matrix the region leaves, entry by entry, from the contents it finds in the two latent arrays. -/
def G (c : Dev nD) : S4096x4096.Idx → EReal := fun i =>
  Cert.Spec.cosK (fun q : Fin 128 => (V c main_v4 : S4096x128.Idx → EReal) (ix2 (i 0 : Fin 4096) q))
    (fun q : Fin 128 => (V c main_v9 : S4096x128.Idx → EReal) (ix2 (i 1 : Fin 4096) q))

/-- The printed index maps, decided once over the grid: the first input's row block is t / 8, the second's t % 8, and
    the output's block is (t / 8, t % 8). -/
theorem idx_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- WHAT POINT t WRITES BACK is block t of G of the contents the region found. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S512x128) hz]
  obtain ⟨e00, e01, e10, e11, eo0, eo1⟩ := idx_facts t
  funext j
  obtain ⟨r, s, rfl⟩ : ∃ (r : Fin 512) (s : Fin 512), j = ix2 r s := ⟨j 0, j 1, eq_ix2 j⟩
  refine (Cert.KernelIdeal.CosValue.cos_pay (iblk2 V c 0 t) (iblk2 V c 1 t) r s).trans ?_
  show _ = G V c (((cfg2.win 2).blk t).view.emb (ix2 r s))
  have hr : r.val < 512 := r.isLt
  have hs : s.val < 512 := s.isLt
  have ht : t.val < 64 := by have h := t.isLt; have hN : cfg2.N = 64 := N_2; omega
  have ho : ((cfg2.win 2).blk t).view.emb (ix2 r s)
      = ix2 (⟨512 * (t.val / 8) + r.val, by omega⟩ : Fin 4096) (⟨512 * (t.val % 8) + s.val, by omega⟩ : Fin 4096) := by
    funext a; apply Fin.ext
    match a with
    | ⟨0, _⟩ => show win2_2.index t (0 : Fin 2) * 512 + 1 * r.val = 512 * (t.val / 8) + r.val; rw [eo0]; omega
    | ⟨1, _⟩ => show win2_2.index t (1 : Fin 2) * 512 + 1 * s.val = 512 * (t.val % 8) + s.val; rw [eo1]; omega
  rw [ho]
  unfold G
  have hm : ∀ q : Fin 128, iblk2 V c 0 t (ix2 r q) = (V c main_v4 : S4096x128.Idx → EReal) (ix2 (⟨512 * (t.val / 8) + r.val, by omega⟩ : Fin 4096) q) := fun q => by
    show (V c main_v4 : S4096x128.Idx → EReal) (((cfg2.win 0).blk t).view.emb (ix2 r q)) = _
    refine congrArg (V c main_v4 : S4096x128.Idx → EReal) (funext fun a => Fin.ext ?_)
    match a with
    | ⟨0, _⟩ => show win2_0.index t (0 : Fin 2) * 512 + 1 * r.val = 512 * (t.val / 8) + r.val; rw [e00]; omega
    | ⟨1, _⟩ => show win2_0.index t (1 : Fin 2) * 128 + 1 * q.val = q.val; rw [e01]; omega
  have hd : ∀ q : Fin 128, iblk2 V c 1 t (ix2 s q) = (V c main_v9 : S4096x128.Idx → EReal) (ix2 (⟨512 * (t.val % 8) + s.val, by omega⟩ : Fin 4096) q) := fun q => by
    show (V c main_v9 : S4096x128.Idx → EReal) (((cfg2.win 1).blk t).view.emb (ix2 s q)) = _
    refine congrArg (V c main_v9 : S4096x128.Idx → EReal) (funext fun a => Fin.ext ?_)
    match a with
    | ⟨0, _⟩ => show win2_1.index t (0 : Fin 2) * 512 + 1 * s.val = 512 * (t.val % 8) + s.val; rw [e10]; omega
    | ⟨1, _⟩ => show win2_1.index t (1 : Fin 2) * 128 + 1 * q.val = q.val; rw [e11]; omega
  simp only [hm, hd]

/-- An index of the matrix is in point t's block iff each coordinate is in the block's range on its axis. -/
theorem mem_blk (t : Fin cfg2.N) (i : S4096x4096.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v10).slice (win2_2.rect t)).set ↔ _
  rw [View.set_slice_whole, Rect.mem_set_unit]
  exact Iff.rfl

/-- Every entry of the matrix lies in the block of the point its row block and column block name. -/
theorem cover (i : S4096x4096.Idx) : ∃ t : Fin cfg2.N, (cfg2.win 2).flush t = true ∧ i ∈ ((cfg2.win 2).blk t).view.set := by
  have hi0 : (i 0).val < 4096 := (i 0).isLt
  have hi1 : (i 1).val < 4096 := (i 1).isLt
  have hN : cfg2.N = 64 := N_2
  refine ⟨⟨(i 0).val / 512 * 8 + (i 1).val / 512, by rw [hN]; omega⟩, flush2_2 _, ?_⟩
  rw [mem_blk]
  obtain ⟨-, -, -, -, eo0, eo1⟩ := idx_facts ⟨(i 0).val / 512 * 8 + (i 1).val / 512, by rw [hN]; omega⟩
  intro a
  match a with
  | ⟨0, _⟩ => show win2_2.index _ (0 : Fin 2) * 512 ≤ (i 0).val ∧ (i 0).val < win2_2.index _ (0 : Fin 2) * 512 + 512; rw [eo0]; show ((i 0).val / 512 * 8 + (i 1).val / 512) / 8 * 512 ≤ (i 0).val ∧ (i 0).val < ((i 0).val / 512 * 8 + (i 1).val / 512) / 8 * 512 + 512; omega
  | ⟨1, _⟩ => show win2_2.index _ (1 : Fin 2) * 512 ≤ (i 1).val ∧ (i 1).val < win2_2.index _ (1 : Fin 2) * 512 + 512; rw [eo1]; show ((i 0).val / 512 * 8 + (i 1).val / 512) % 8 * 512 ≤ (i 1).val ∧ (i 1).val < ((i 0).val / 512 * 8 + (i 1).val / 512) % 8 * 512 + 512; omega

/-- THE MATRIX after the region: G of the contents the region found. -/
theorem final (c : Dev nD) : (dat2 V c).arrAt 2 cfg2.N = G V c :=
  (dat2 V c).arrAt_eq_of_cover 2 (G V c) (fun t _ => flushed_eq V c t) (cover)

end Cert.KernelIdeal.Region2

end
-- ==== Proof.Fold.lean ====
/-
  The contents of the kernel program's buffers at the boundaries between its stretches, in terms of the launch memory.

  Nothing writes an argument array, so every region finds the arguments as launched; a bias row is its vector
  reshaped.  The first encoder therefore leaves the latent row function of the first features, noise and weights in
  its output array, the second encoder the same of the second ones, and neither array is written again: the cosine
  kernel finds both, leaves their cosine entries in the matrix, and the host's loss is computed from that matrix and
  the sample indices.
-/
import proofs.«138127_j29188597743707_1_alg».proof.Proof.Gen.KernelIdeal.Frame
import proofs.«138127_j29188597743707_1_alg».proof.Proof.Region0
import proofs.«138127_j29188597743707_1_alg».proof.Proof.Region1
import proofs.«138127_j29188597743707_1_alg».proof.Proof.Region2
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg)

/-- A stretch of host operations none of which writes the buffer leaves it as it was. -/
macro "host_skip" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- A vector reshaped to a row reads, at (0, j), the vector's entry j. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-! ## What the first encoder finds -/

theorem V1_main_arg0 (c : Dev nD) : V1 m ρ c main_arg0 = m ((c : Thread nD τ).loc main_arg0) := by
  show StableHlo.after hostOps0 (W0 m ρ c) (Proc.devRef .tc main_arg0) = _
  exact (by host_skip hostOps0 : StableHlo.after hostOps0 (W0 m ρ c) (Proc.devRef .tc main_arg0) = W0 m ρ c (Proc.devRef .tc main_arg0)).trans rfl

theorem V1_main_arg2 (c : Dev nD) : V1 m ρ c main_arg2 = m ((c : Thread nD τ).loc main_arg2) := by
  show StableHlo.after hostOps0 (W0 m ρ c) (Proc.devRef .tc main_arg2) = _
  exact (by host_skip hostOps0 : StableHlo.after hostOps0 (W0 m ρ c) (Proc.devRef .tc main_arg2) = W0 m ρ c (Proc.devRef .tc main_arg2)).trans rfl

theorem V1_main_arg4 (c : Dev nD) : V1 m ρ c main_arg4 = m ((c : Thread nD τ).loc main_arg4) := by
  show StableHlo.after hostOps0 (W0 m ρ c) (Proc.devRef .tc main_arg4) = _
  exact (by host_skip hostOps0 : StableHlo.after hostOps0 (W0 m ρ c) (Proc.devRef .tc main_arg4) = W0 m ρ c (Proc.devRef .tc main_arg4)).trans rfl

theorem V1_main_arg6 (c : Dev nD) : V1 m ρ c main_arg6 = m ((c : Thread nD τ).loc main_arg6) := by
  show StableHlo.after hostOps0 (W0 m ρ c) (Proc.devRef .tc main_arg6) = _
  exact (by host_skip hostOps0 : StableHlo.after hostOps0 (W0 m ρ c) (Proc.devRef .tc main_arg6) = W0 m ρ c (Proc.devRef .tc main_arg6)).trans rfl

theorem V1_main_arg8 (c : Dev nD) : V1 m ρ c main_arg8 = m ((c : Thread nD τ).loc main_arg8) := by
  show StableHlo.after hostOps0 (W0 m ρ c) (Proc.devRef .tc main_arg8) = _
  exact (by host_skip hostOps0 : StableHlo.after hostOps0 (W0 m ρ c) (Proc.devRef .tc main_arg8) = W0 m ρ c (Proc.devRef .tc main_arg8)).trans rfl

theorem V1_main_arg10 (c : Dev nD) : V1 m ρ c main_arg10 = m ((c : Thread nD τ).loc main_arg10) := by
  show StableHlo.after hostOps0 (W0 m ρ c) (Proc.devRef .tc main_arg10) = _
  exact (by host_skip hostOps0 : StableHlo.after hostOps0 (W0 m ρ c) (Proc.devRef .tc main_arg10) = W0 m ρ c (Proc.devRef .tc main_arg10)).trans rfl

theorem V1_main_v0 (c : Dev nD) :
    (V1 m ρ c main_v0 : S1x512.Idx → EReal) = shapeCast S1x512 (m ((c : Thread nD τ).loc main_arg5) : S512.Idx → EReal) shapeCasts_S512_S1x512 := by
  show StableHlo.after hostOps0 (W0 m ρ c) (Proc.devRef .tc main_v0) = _
  after_results
  try rfl

theorem V1_main_v1 (c : Dev nD) :
    (V1 m ρ c main_v1 : S1x256.Idx → EReal) = shapeCast S1x256 (m ((c : Thread nD τ).loc main_arg7) : S256.Idx → EReal) shapeCasts_S256_S1x256 := by
  show StableHlo.after hostOps0 (W0 m ρ c) (Proc.devRef .tc main_v1) = _
  after_results
  try rfl

theorem V1_main_v2 (c : Dev nD) :
    (V1 m ρ c main_v2 : S1x64.Idx → EReal) = shapeCast S1x64 (m ((c : Thread nD τ).loc main_arg9) : S64.Idx → EReal) shapeCasts_S64_S1x64 := by
  show StableHlo.after hostOps0 (W0 m ρ c) (Proc.devRef .tc main_v2) = _
  after_results
  try rfl

theorem V1_main_v3 (c : Dev nD) :
    (V1 m ρ c main_v3 : S1x256.Idx → EReal) = shapeCast S1x256 (m ((c : Thread nD τ).loc main_arg11) : S256.Idx → EReal) shapeCasts_S256_S1x256 := by
  show StableHlo.after hostOps0 (W0 m ρ c) (Proc.devRef .tc main_v3) = _
  after_results
  try rfl

/-- The first latent array, as a function of the launch memory. -/
def latM (c : Dev nD) : S4096x128.Idx → EReal := fun i =>
  Cert.Spec.encRow (fun a k => ((m ((c : Thread nD τ).loc main_arg4)) : S512x2048.Idx → EReal) (ix2 a k)) (fun a => ((m ((c : Thread nD τ).loc main_arg5)) : S512.Idx → EReal) (ix1 a))
    (fun a k => ((m ((c : Thread nD τ).loc main_arg6)) : S256x512.Idx → EReal) (ix2 a k)) (fun a => ((m ((c : Thread nD τ).loc main_arg7)) : S256.Idx → EReal) (ix1 a))
    (fun a k => ((m ((c : Thread nD τ).loc main_arg8)) : S64x256.Idx → EReal) (ix2 a k)) (fun a => ((m ((c : Thread nD τ).loc main_arg9)) : S64.Idx → EReal) (ix1 a))
    (fun a k => ((m ((c : Thread nD τ).loc main_arg10)) : S256x64.Idx → EReal) (ix2 a k)) (fun a => ((m ((c : Thread nD τ).loc main_arg11)) : S256.Idx → EReal) (ix1 a))
    (fun k => ((m ((c : Thread nD τ).loc main_arg0)) : S4096x2048.Idx → EReal) (ix2 (i 0 : Fin 4096) k)) (fun q => ((m ((c : Thread nD τ).loc main_arg2)) : S4096x128.Idx → EReal) (ix2 (i 0 : Fin 4096) q))
    (i 1 : Fin 128)

/-- After the first encoder its output array holds the first latent array. -/
theorem W2_main_v4 (c : Dev nD) : (W2 m ρ c (Proc.devRef .tc main_v4) : S4096x128.Idx → EReal) = latM m c := by
  rw [show W2 m ρ c (Proc.devRef .tc main_v4) = (dat0 (V1 m ρ) c).arrAt 10 cfg0.N from W2_arr m ρ c 10, Region0.final]
  funext i
  unfold Region0.G latM
  rw [V1_main_arg0, V1_main_arg2, V1_main_arg4, V1_main_arg6, V1_main_arg8, V1_main_arg10, V1_main_v0, V1_main_v1, V1_main_v2, V1_main_v3]
  simp only [shapeCast_b_1b_apply]

/-! ## What the second encoder finds -/

theorem W2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by host_skip hostOps0
    _ = m ((c : Thread nD τ).loc main_arg13) := rfl

theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := by host_skip hostOps0
    _ = m ((c : Thread nD τ).loc main_arg15) := rfl

theorem W2_main_arg17 (c : Dev nD) : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := by host_skip hostOps0
    _ = m ((c : Thread nD τ).loc main_arg17) := rfl

theorem W2_main_arg19 (c : Dev nD) : W2 m ρ c (Proc.devRef .tc main_arg19) = m ((c : Thread nD τ).loc main_arg19) :=
  calc W2 m ρ c (Proc.devRef .tc main_arg19)
    _ = W1 m ρ c (Proc.devRef .tc main_arg19) := W2_of_ne m ρ c main_arg19 (by decide)
    _ = W0 m ρ c (Proc.devRef .tc main_arg19) := by host_skip hostOps0
    _ = m ((c : Thread nD τ).loc main_arg19) := rfl

theorem V3_main_arg1 (c : Dev nD) : V3 m ρ c main_arg1 = m ((c : Thread nD τ).loc main_arg1) :=
  calc W3 m ρ c (Proc.devRef .tc main_arg1)
    _ = W2 m ρ c (Proc.devRef .tc main_arg1) := by host_skip hostOps1
    _ = W1 m ρ c (Proc.devRef .tc main_arg1) := W2_of_ne m ρ c main_arg1 (by decide)
    _ = W0 m ρ c (Proc.devRef .tc main_arg1) := by host_skip hostOps0
    _ = m ((c : Thread nD τ).loc main_arg1) := rfl

theorem V3_main_arg3 (c : Dev nD) : V3 m ρ c main_arg3 = m ((c : Thread nD τ).loc main_arg3) :=
  calc W3 m ρ c (Proc.devRef .tc main_arg3)
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0
    _ = m ((c : Thread nD τ).loc main_arg3) := rfl

theorem V3_main_arg12 (c : Dev nD) : V3 m ρ c main_arg12 = m ((c : Thread nD τ).loc main_arg12) :=
  calc W3 m ρ c (Proc.devRef .tc main_arg12)
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl

theorem V3_main_arg14 (c : Dev nD) : V3 m ρ c main_arg14 = m ((c : Thread nD τ).loc main_arg14) :=
  calc W3 m ρ c (Proc.devRef .tc main_arg14)
    _ = W2 m ρ c (Proc.devRef .tc main_arg14) := by host_skip hostOps1
    _ = W1 m ρ c (Proc.devRef .tc main_arg14) := W2_of_ne m ρ c main_arg14 (by decide)
    _ = W0 m ρ c (Proc.devRef .tc main_arg14) := by host_skip hostOps0
    _ = m ((c : Thread nD τ).loc main_arg14) := rfl

theorem V3_main_arg16 (c : Dev nD) : V3 m ρ c main_arg16 = m ((c : Thread nD τ).loc main_arg16) :=
  calc W3 m ρ c (Proc.devRef .tc main_arg16)
    _ = W2 m ρ c (Proc.devRef .tc main_arg16) := by host_skip hostOps1
    _ = W1 m ρ c (Proc.devRef .tc main_arg16) := W2_of_ne m ρ c main_arg16 (by decide)
    _ = W0 m ρ c (Proc.devRef .tc main_arg16) := by host_skip hostOps0
    _ = m ((c : Thread nD τ).loc main_arg16) := rfl

theorem V3_main_arg18 (c : Dev nD) : V3 m ρ c main_arg18 = m ((c : Thread nD τ).loc main_arg18) :=
  calc W3 m ρ c (Proc.devRef .tc main_arg18)
    _ = W2 m ρ c (Proc.devRef .tc main_arg18) := by host_skip hostOps1
    _ = W1 m ρ c (Proc.devRef .tc main_arg18) := W2_of_ne m ρ c main_arg18 (by decide)
    _ = W0 m ρ c (Proc.devRef .tc main_arg18) := by host_skip hostOps0
    _ = m ((c : Thread nD τ).loc main_arg18) := rfl

theorem V3_main_v5 (c : Dev nD) :
    (V3 m ρ c main_v5 : S1x512.Idx → EReal) = shapeCast S1x512 (m ((c : Thread nD τ).loc main_arg13) : S512.Idx → EReal) shapeCasts_S512_S1x512 := by
  show StableHlo.after hostOps1 (W2 m ρ c) (Proc.devRef .tc main_v5) = _
  after_results
  rw [W2_main_arg13]
  rfl

theorem V3_main_v6 (c : Dev nD) :
    (V3 m ρ c main_v6 : S1x256.Idx → EReal) = shapeCast S1x256 (m ((c : Thread nD τ).loc main_arg15) : S256.Idx → EReal) shapeCasts_S256_S1x256 := by
  show StableHlo.after hostOps1 (W2 m ρ c) (Proc.devRef .tc main_v6) = _
  after_results
  rw [W2_main_arg15]
  rfl

theorem V3_main_v7 (c : Dev nD) :
    (V3 m ρ c main_v7 : S1x64.Idx → EReal) = shapeCast S1x64 (m ((c : Thread nD τ).loc main_arg17) : S64.Idx → EReal) shapeCasts_S64_S1x64 := by
  show StableHlo.after hostOps1 (W2 m ρ c) (Proc.devRef .tc main_v7) = _
  after_results
  rw [W2_main_arg17]
  rfl

theorem V3_main_v8 (c : Dev nD) :
    (V3 m ρ c main_v8 : S1x256.Idx → EReal) = shapeCast S1x256 (m ((c : Thread nD τ).loc main_arg19) : S256.Idx → EReal) shapeCasts_S256_S1x256 := by
  show StableHlo.after hostOps1 (W2 m ρ c) (Proc.devRef .tc main_v8) = _
  after_results
  rw [W2_main_arg19]
  rfl

/-- The second latent array, as a function of the launch memory. -/
def latD (c : Dev nD) : S4096x128.Idx → EReal := fun i =>
  Cert.Spec.encRow (fun a k => ((m ((c : Thread nD τ).loc main_arg12)) : S512x2048.Idx → EReal) (ix2 a k)) (fun a => ((m ((c : Thread nD τ).loc main_arg13)) : S512.Idx → EReal) (ix1 a))
    (fun a k => ((m ((c : Thread nD τ).loc main_arg14)) : S256x512.Idx → EReal) (ix2 a k)) (fun a => ((m ((c : Thread nD τ).loc main_arg15)) : S256.Idx → EReal) (ix1 a))
    (fun a k => ((m ((c : Thread nD τ).loc main_arg16)) : S64x256.Idx → EReal) (ix2 a k)) (fun a => ((m ((c : Thread nD τ).loc main_arg17)) : S64.Idx → EReal) (ix1 a))
    (fun a k => ((m ((c : Thread nD τ).loc main_arg18)) : S256x64.Idx → EReal) (ix2 a k)) (fun a => ((m ((c : Thread nD τ).loc main_arg19)) : S256.Idx → EReal) (ix1 a))
    (fun k => ((m ((c : Thread nD τ).loc main_arg1)) : S4096x2048.Idx → EReal) (ix2 (i 0 : Fin 4096) k)) (fun q => ((m ((c : Thread nD τ).loc main_arg3)) : S4096x128.Idx → EReal) (ix2 (i 0 : Fin 4096) q))
    (i 1 : Fin 128)

/-- After the second encoder its output array holds the second latent array. -/
theorem W4_main_v9 (c : Dev nD) : (W4 m ρ c (Proc.devRef .tc main_v9) : S4096x128.Idx → EReal) = latD m c := by
  rw [show W4 m ρ c (Proc.devRef .tc main_v9) = (dat1 (V3 m ρ) c).arrAt 10 cfg1.N from W4_arr m ρ c 10, Region1.final]
  funext i
  unfold Region1.G latD
  rw [V3_main_arg1, V3_main_arg3, V3_main_arg12, V3_main_arg14, V3_main_arg16, V3_main_arg18, V3_main_v5, V3_main_v6, V3_main_v7, V3_main_v8]
  simp only [shapeCast_b_1b_apply]

/-- The second encoder and the reshapes before it leave the first latent array alone. -/
theorem W4_main_v4 (c : Dev nD) : (W4 m ρ c (Proc.devRef .tc main_v4) : S4096x128.Idx → EReal) = latM m c :=
  calc W4 m ρ c (Proc.devRef .tc main_v4)
    _ = W3 m ρ c (Proc.devRef .tc main_v4) := W4_of_ne m ρ c main_v4 (by decide)
    _ = W2 m ρ c (Proc.devRef .tc main_v4) := by host_skip hostOps1
    _ = latM m c := W2_main_v4 m ρ c

/-! ## What the cosine kernel finds and leaves -/

/-- The cosine matrix, as a function of the launch memory. -/
def lw (c : Dev nD) : S4096x4096.Idx → EReal := fun i =>
  Cert.Spec.cosK (fun q : Fin 128 => latM m c (ix2 (i 0 : Fin 4096) q)) (fun q : Fin 128 => latD m c (ix2 (i 1 : Fin 4096) q))

theorem W5_main_v10 (c : Dev nD) : (W5 m ρ c (Proc.devRef .tc main_v10) : S4096x4096.Idx → EReal) = lw m c := by
  rw [show W5 m ρ c (Proc.devRef .tc main_v10) = (dat2 (V4 m ρ) c).arrAt 2 cfg2.N from W5_arr m ρ c 2, Region2.final]
  funext i
  unfold Region2.G lw
  rw [show V4 m ρ c main_v4 = latM m c from W4_main_v4 m ρ c, show V4 m ρ c main_v9 = latD m c from W4_main_v9 m ρ c]

/-- The cosine kernel writes neither latent array. -/
theorem W5_main_v4 (c : Dev nD) : (W5 m ρ c (Proc.devRef .tc main_v4) : S4096x128.Idx → EReal) = latM m c :=
  ((W5_arr m ρ c 0).trans (((dat2 (V4 m ρ) c).arrAt_in 0 rfl _).trans (A_eq2 (V4 m ρ) c 0))).trans (W4_main_v4 m ρ c)

theorem W5_main_v9 (c : Dev nD) : (W5 m ρ c (Proc.devRef .tc main_v9) : S4096x128.Idx → EReal) = latD m c :=
  ((W5_arr m ρ c 1).trans (((dat2 (V4 m ρ) c).arrAt_in 1 rfl _).trans (A_eq2 (V4 m ρ) c 1))).trans (W4_main_v9 m ρ c)

/-- The sample indices reach the host's loss as launched. -/
theorem W5_main_arg20 (c : Dev nD) : W5 m ρ c (Proc.devRef .tc main_arg20) = m ((c : Thread nD τ).loc main_arg20) :=
  calc W5 m ρ c (Proc.devRef .tc main_arg20)
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := by host_skip hostOps1
    _ = W1 m ρ c (Proc.devRef .tc main_arg20) := W2_of_ne m ρ c main_arg20 (by decide)
    _ = W0 m ρ c (Proc.devRef .tc main_arg20) := by host_skip hostOps0
    _ = m ((c : Thread nD τ).loc main_arg20) := rfl

/-! ## The two latent results -/

theorem W6_main_v4 (c : Dev nD) : (W6 m ρ c (Proc.devRef .tc main_v4) : S4096x128.Idx → EReal) = latM m c :=
  (by host_skip hostOps3 : W6 m ρ c (Proc.devRef .tc main_v4) = W5 m ρ c (Proc.devRef .tc main_v4)).trans (W5_main_v4 m ρ c)

theorem W6_main_v9 (c : Dev nD) : (W6 m ρ c (Proc.devRef .tc main_v9) : S4096x128.Idx → EReal) = latD m c :=
  (by host_skip hostOps3 : W6 m ρ c (Proc.devRef .tc main_v9) = W5 m ρ c (Proc.devRef .tc main_v9)).trans (W5_main_v9 m ρ c)

end Cert.KernelIdeal.Fold

end
-- ==== Proof.Tail.lean ====
/-
  The loss, computed on the host from the cosine matrix and the sample indices.

  Both programs compute the loss by the same operations in the same order: three columns of the sample array, negative
  indices wrapped by 4096, two gathers from the matrix, and the contrastive expression averaged over the samples.  So
  once the matrix the kernel program's host stretch reads is the matrix the reference computes, the two losses are one
  term, read off the kernel program's last stretch on one side and off the reference's stages on the other.
-/
import proofs.«138127_j29188597743707_1_alg».proof.Proof.Fold
import proofs.«138127_j29188597743707_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Tail

open Cert.KernelIdeal Cert.KernelIdeal.Gen

set_option maxHeartbeats 8000000 in
/-- From any contents whose matrix buffer holds the reference's matrix stage of some arguments, the last stretch leaves
    in the loss buffer the reference's loss stage of those arguments and of the sample array the contents hold. -/
theorem loss_eq (V : Valuation τ sig (Elt Ideal)) (x0 x1 : (⟨Cert.ReferenceIdeal.S4096x2048, .f32⟩ : BufTy).Contents (Elt Ideal)) (x2 x3 : (⟨Cert.ReferenceIdeal.S4096x128, .f32⟩ : BufTy).Contents (Elt Ideal)) (x4 : (⟨Cert.ReferenceIdeal.S512x2048, .f32⟩ : BufTy).Contents (Elt Ideal)) (x5 : (⟨Cert.ReferenceIdeal.S512, .f32⟩ : BufTy).Contents (Elt Ideal)) (x6 : (⟨Cert.ReferenceIdeal.S256x512, .f32⟩ : BufTy).Contents (Elt Ideal)) (x7 : (⟨Cert.ReferenceIdeal.S256, .f32⟩ : BufTy).Contents (Elt Ideal)) (x8 : (⟨Cert.ReferenceIdeal.S64x256, .f32⟩ : BufTy).Contents (Elt Ideal)) (x9 : (⟨Cert.ReferenceIdeal.S64, .f32⟩ : BufTy).Contents (Elt Ideal)) (x10 : (⟨Cert.ReferenceIdeal.S256x64, .f32⟩ : BufTy).Contents (Elt Ideal)) (x11 : (⟨Cert.ReferenceIdeal.S256, .f32⟩ : BufTy).Contents (Elt Ideal)) (x12 : (⟨Cert.ReferenceIdeal.S512x2048, .f32⟩ : BufTy).Contents (Elt Ideal)) (x13 : (⟨Cert.ReferenceIdeal.S512, .f32⟩ : BufTy).Contents (Elt Ideal)) (x14 : (⟨Cert.ReferenceIdeal.S256x512, .f32⟩ : BufTy).Contents (Elt Ideal)) (x15 : (⟨Cert.ReferenceIdeal.S256, .f32⟩ : BufTy).Contents (Elt Ideal)) (x16 : (⟨Cert.ReferenceIdeal.S64x256, .f32⟩ : BufTy).Contents (Elt Ideal)) (x17 : (⟨Cert.ReferenceIdeal.S64, .f32⟩ : BufTy).Contents (Elt Ideal)) (x18 : (⟨Cert.ReferenceIdeal.S256x64, .f32⟩ : BufTy).Contents (Elt Ideal)) (x19 : (⟨Cert.ReferenceIdeal.S256, .f32⟩ : BufTy).Contents (Elt Ideal))
    (h1 : V (Proc.devRef .tc main_v10) = Cert.ReferenceIdeal.Read.val_main_v67 (F := Ideal) x0 x1 x2 x3 x4 x5 x6 x7 x8 x9 x10 x11 x12 x13 x14 x15 x16 x17 x18 x19) :
    StableHlo.after hostOps3 V (Proc.devRef .tc main_v73)
      = Cert.ReferenceIdeal.Read.val_main_v130 (F := Ideal) x0 x1 x2 x3 x4 x5 x6 x7 x8 x9 x10 x11 x12 x13 x14 x15 x16 x17 x18 x19 (V (Proc.devRef .tc main_arg20)) := by
  after_results_simp
  rw [h1]
  simp only [Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_c, Cert.ReferenceIdeal.Read.val_main_v74, Cert.ReferenceIdeal.Read.val_main_v75, Cert.ReferenceIdeal.Read.val_main_c_1, Cert.ReferenceIdeal.Read.val_main_v76, Cert.ReferenceIdeal.Read.val_main_v77, Cert.ReferenceIdeal.Read.val_main_v78, Cert.ReferenceIdeal.Read.val_main_c_2, Cert.ReferenceIdeal.Read.val_main_v79, Cert.ReferenceIdeal.Read.val_main_v80, Cert.ReferenceIdeal.Read.val_main_c_3, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_v86, Cert.ReferenceIdeal.Read.val_main_v87, Cert.ReferenceIdeal.Read.val_main_c_4, Cert.ReferenceIdeal.Read.val_main_v88, Cert.ReferenceIdeal.Read.val_main_v89, Cert.ReferenceIdeal.Read.val_main_c_5, Cert.ReferenceIdeal.Read.val_main_v90, Cert.ReferenceIdeal.Read.val_main_v91, Cert.ReferenceIdeal.Read.val_main_v92, Cert.ReferenceIdeal.Read.val_main_c_6, Cert.ReferenceIdeal.Read.val_main_v93, Cert.ReferenceIdeal.Read.val_main_v94, Cert.ReferenceIdeal.Read.val_main_c_7, Cert.ReferenceIdeal.Read.val_main_v95, Cert.ReferenceIdeal.Read.val_main_v96, Cert.ReferenceIdeal.Read.val_main_v97, Cert.ReferenceIdeal.Read.val_main_v98, Cert.ReferenceIdeal.Read.val_main_v99, Cert.ReferenceIdeal.Read.val_main_v100, Cert.ReferenceIdeal.Read.val_main_v101, Cert.ReferenceIdeal.Read.val_main_cst_8, Cert.ReferenceIdeal.Read.val_main_v102, Cert.ReferenceIdeal.Read.val_main_v103, Cert.ReferenceIdeal.Read.val_main_v104, Cert.ReferenceIdeal.Read.val_main_cst_9, Cert.ReferenceIdeal.Read.val_main_v105, Cert.ReferenceIdeal.Read.val_main_v106, Cert.ReferenceIdeal.Read.val_main_v107, Cert.ReferenceIdeal.Read.val_main_cst_10, Cert.ReferenceIdeal.Read.val_main_v108, Cert.ReferenceIdeal.Read.val_main_v109, Cert.ReferenceIdeal.Read.val_main_cst_11, Cert.ReferenceIdeal.Read.val_main_v110, Cert.ReferenceIdeal.Read.val_main_v111, Cert.ReferenceIdeal.Read.val_main_cst_12, Cert.ReferenceIdeal.Read.val_main_v112, Cert.ReferenceIdeal.Read.val_main_v113, Cert.ReferenceIdeal.Read.val_main_v114, Cert.ReferenceIdeal.Read.val_main_v115, Cert.ReferenceIdeal.Read.val_main_v116, Cert.ReferenceIdeal.Read.val_main_v117, Cert.ReferenceIdeal.Read.val_main_cst_13, Cert.ReferenceIdeal.Read.val_main_v118, Cert.ReferenceIdeal.Read.val_main_v119, Cert.ReferenceIdeal.Read.val_main_cst_14, Cert.ReferenceIdeal.Read.val_main_v120, Cert.ReferenceIdeal.Read.val_main_v121, Cert.ReferenceIdeal.Read.val_main_cst_15, Cert.ReferenceIdeal.Read.val_main_v122, Cert.ReferenceIdeal.Read.val_main_v123, Cert.ReferenceIdeal.Read.val_main_v124, Cert.ReferenceIdeal.Read.val_main_cst_16, Cert.ReferenceIdeal.Read.val_main_v125, Cert.ReferenceIdeal.Read.val_main_v126, Cert.ReferenceIdeal.Read.val_main_v127, Cert.ReferenceIdeal.Read.val_main_v128, Cert.ReferenceIdeal.Read.val_main_cst_17, Cert.ReferenceIdeal.Read.val_main_v129, Cert.ReferenceIdeal.Read.val_main_cst_18, Cert.ReferenceIdeal.Read.val_main_v130]
  rfl

variable (m : (ℓ : Loc nD τ sig) → Buf (Elt Ideal) ℓ) (ρ : Dev nD → PrngReg)

/-- The loss the last stretch leaves is the reference's loss stage of the launch memory, given that the cosine matrix
    is the reference's matrix stage. -/
theorem W6_main_v73 (c : Dev nD)
    (hlw : Fold.lw m c = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) :
    W6 m ρ c (Proc.devRef .tc main_v73) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h := loss_eq (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) ((Fold.W5_main_v10 m ρ c).trans hlw)
  rw [Fold.W5_main_arg20 m ρ c] at h
  exact h

end Cert.KernelIdeal.Tail

end
-- ==== Proof.RefValue.lean ====
/-
  The reference program's two latent arrays and its cosine matrix, read one entry at a time.

  Every dense layer of the reference is a matrix product against the transposed weights followed by the addition of
  the bias broadcast along the rows; read at row p and output unit a this is the sum over q of x(p, q) · W(a, q) plus
  b(a).  The activation is the maximum with a broadcast zero.  Composing the four layers, the two column halves and
  the reparametrisation gives one latent row as a function of one input row and one noise row.  The cosine matrix
  divides each latent row by the square root of its sum of squares and multiplies row p of the first array with row j
  of the second.
-/
import proofs.«138127_j29188597743707_1_alg».proof.Proof.Gen.ReferenceIdeal.Read
import proofs.«138127_j29188597743707_1_alg».proof.Proof.Spec

noncomputable section

namespace Cert.ReferenceIdeal.RefValue

open Cert.ReferenceIdeal Cert.ReferenceIdeal.Read Idealize.ShloMosaic Idealize.ShloMosaic.ValueIdx

variable (x0 x1 : (⟨S4096x2048, .f32⟩ : BufTy).Contents (Elt Ideal)) (x2 x3 : (⟨S4096x128, .f32⟩ : BufTy).Contents (Elt Ideal))
  (x4 : (⟨S512x2048, .f32⟩ : BufTy).Contents (Elt Ideal)) (x5 : (⟨S512, .f32⟩ : BufTy).Contents (Elt Ideal))
  (x6 : (⟨S256x512, .f32⟩ : BufTy).Contents (Elt Ideal)) (x7 : (⟨S256, .f32⟩ : BufTy).Contents (Elt Ideal))
  (x8 : (⟨S64x256, .f32⟩ : BufTy).Contents (Elt Ideal)) (x9 : (⟨S64, .f32⟩ : BufTy).Contents (Elt Ideal))
  (x10 : (⟨S256x64, .f32⟩ : BufTy).Contents (Elt Ideal)) (x11 : (⟨S256, .f32⟩ : BufTy).Contents (Elt Ideal))
  (x12 : (⟨S512x2048, .f32⟩ : BufTy).Contents (Elt Ideal)) (x13 : (⟨S512, .f32⟩ : BufTy).Contents (Elt Ideal))
  (x14 : (⟨S256x512, .f32⟩ : BufTy).Contents (Elt Ideal)) (x15 : (⟨S256, .f32⟩ : BufTy).Contents (Elt Ideal))
  (x16 : (⟨S64x256, .f32⟩ : BufTy).Contents (Elt Ideal)) (x17 : (⟨S64, .f32⟩ : BufTy).Contents (Elt Ideal))
  (x18 : (⟨S256x64, .f32⟩ : BufTy).Contents (Elt Ideal)) (x19 : (⟨S256, .f32⟩ : BufTy).Contents (Elt Ideal))

/-- Two indices of a matrix are equal when both coordinates are. -/
local macro "idx_eq2" : tactic =>
  `(tactic| exact funext fun d => Fin.ext (by match d with | ⟨0, _⟩ => rfl | ⟨1, _⟩ => rfl))

/-- Two indices of a vector are equal when their one coordinate is. -/
local macro "idx_eq1" : tactic =>
  `(tactic| exact funext fun d => Fin.ext (by match d with | ⟨0, _⟩ => rfl))

/-! ### The first encoder -/

/-- First layer with its activation: row p of the features against row a of the weights, plus the bias, then the
    maximum with zero. -/
theorem m_l1 (p : Fin 4096) (a : Fin 512) :
    val_main_v5 (F := Ideal) x0 x4 x5 (ix2 p a)
      = Cert.Spec.relu0 (Cert.Spec.layer (fun a k => x4 (ix2 a k)) (fun a => x5 (ix1 a)) (fun k => x0 (ix2 p k)) a) := by
  rw [val_main_v5_apply, val_main_call0_v0_apply, val_main_call0_cst_apply, val_main_v4_apply, val_main_v1_apply,
    val_main_v3_apply, val_main_v2_apply]
  simp only [val_main_v0_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ => congrArg₂ (· * ·) (congrArg x0 ?_) (congrArg x4 ?_))
    (congrArg x5 ?_)
  · idx_eq2
  · idx_eq2
  · idx_eq1

/-- Second layer with its activation, on the first layer's activated row. -/
theorem m_l2 (p : Fin 4096) (b : Fin 256) :
    val_main_v11 (F := Ideal) x0 x4 x5 x6 x7 (ix2 p b)
      = Cert.Spec.relu0 (Cert.Spec.layer (fun a k => x6 (ix2 a k)) (fun a => x7 (ix1 a))
          (fun a => val_main_v5 (F := Ideal) x0 x4 x5 (ix2 p a)) b) := by
  rw [val_main_v11_apply, val_main_call1_v0_apply, val_main_call1_cst_apply, val_main_v10_apply, val_main_v7_apply,
    val_main_v9_apply, val_main_v8_apply]
  simp only [val_main_v6_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ =>
    congrArg₂ (· * ·) (congrArg (val_main_v5 (F := Ideal) x0 x4 x5) ?_) (congrArg x6 ?_)) (congrArg x7 ?_)
  · idx_eq2
  · idx_eq2
  · idx_eq1

/-- Third layer with its activation, on the second layer's activated row. -/
theorem m_l3 (p : Fin 4096) (c : Fin 64) :
    val_main_v17 (F := Ideal) x0 x4 x5 x6 x7 x8 x9 (ix2 p c)
      = Cert.Spec.relu0 (Cert.Spec.layer (fun a k => x8 (ix2 a k)) (fun a => x9 (ix1 a))
          (fun b => val_main_v11 (F := Ideal) x0 x4 x5 x6 x7 (ix2 p b)) c) := by
  rw [val_main_v17_apply, val_main_call2_v0_apply, val_main_call2_cst_apply, val_main_v16_apply, val_main_v13_apply,
    val_main_v15_apply, val_main_v14_apply]
  simp only [val_main_v12_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ =>
    congrArg₂ (· * ·) (congrArg (val_main_v11 (F := Ideal) x0 x4 x5 x6 x7) ?_) (congrArg x8 ?_)) (congrArg x9 ?_)
  · idx_eq2
  · idx_eq2
  · idx_eq1

/-- Fourth layer (no activation), on the third layer's activated row. -/
theorem m_l4 (p : Fin 4096) (e : Fin 256) :
    val_main_v22 (F := Ideal) x0 x4 x5 x6 x7 x8 x9 x10 x11 (ix2 p e)
      = Cert.Spec.layer (fun a k => x10 (ix2 a k)) (fun a => x11 (ix1 a))
          (fun c => val_main_v17 (F := Ideal) x0 x4 x5 x6 x7 x8 x9 (ix2 p c)) e := by
  rw [val_main_v22_apply, val_main_v19_apply, val_main_v21_apply, val_main_v20_apply]
  simp only [val_main_v18_apply, Ideal.addf_def]
  unfold Cert.Spec.layer
  refine congrArg₂ (· + ·) (Finset.sum_congr rfl fun k _ =>
    congrArg₂ (· * ·) (congrArg (val_main_v17 (F := Ideal) x0 x4 x5 x6 x7 x8 x9) ?_) (congrArg x10 ?_)) (congrArg x11 ?_)
  · idx_eq2
  · idx_eq2
  · idx_eq1

/-- The fourth layer's outputs of row p are the four layers composed on row p of the features. -/
theorem m_out (p : Fin 4096) (e : Fin 256) :
    val_main_v22 (F := Ideal) x0 x4 x5 x6 x7 x8 x9 x10 x11 (ix2 p e)
      = Cert.Spec.outRow (fun a k => x4 (ix2 a k)) (fun a => x5 (ix1 a)) (fun a k => x6 (ix2 a k)) (fun a => x7 (ix1 a))
          (fun a k => x8 (ix2 a k)) (fun a => x9 (ix1 a)) (fun a k => x10 (ix2 a k)) (fun a => x11 (ix1 a))
          (fun k => x0 (ix2 p k)) e := by
  rw [m_l4]
  unfold Cert.Spec.outRow
  simp only [m_l3, m_l2, m_l1]

/-- The first latent array at (p, q): the mean half plus the noise times the exponential of half the log-variance
    half, both halves read off the fourth layer's outputs of row p. -/
theorem lat_m_apply (p : Fin 4096) (q : Fin 128) :
    val_main_v29 (F := Ideal) x0 x2 x4 x5 x6 x7 x8 x9 x10 x11 (ix2 p q)
      = Cert.Spec.encRow (fun a k => x4 (ix2 a k)) (fun a => x5 (ix1 a)) (fun a k => x6 (ix2 a k)) (fun a => x7 (ix1 a))
          (fun a k => x8 (ix2 a k)) (fun a => x9 (ix1 a)) (fun a k => x10 (ix2 a k)) (fun a => x11 (ix1 a))
          (fun k => x0 (ix2 p k)) (fun r => x2 (ix2 p r)) q := by
  have hq : q.val < 128 := q.isLt
  have elo : idx_main_v23 (ix2 p q) = ix2 p (⟨q.val, by omega⟩ : Fin 256) := by idx_eq2
  have ehi : idx_main_v24 (ix2 p q) = ix2 p (⟨128 + q.val, by omega⟩ : Fin 256) := by idx_eq2
  rw [val_main_v29_apply, val_main_v23_apply, val_main_v28_apply, val_main_v27_apply, val_main_v26_apply,
    val_main_v25_apply, val_main_cst_apply, val_main_v24_apply, elo, ehi, m_out, m_out]
  simp only [Ideal.addf_def, Ideal.mulf_def, Ideal.hostUnary_exp_def, Ideal.ofBits_def]
  unfold Cert.Spec.encRow
  rfl

/-! ### The second encoder -/

/-- First layer with its activation: row p of the features against row a of the weights, plus the bias, then the
    maximum with zero. -/
theorem d_l1 (p : Fin 4096) (a : Fin 512) :
    val_main_v35 (F := Ideal) x1 x12 x13 (ix2 p a)
      = Cert.Spec.relu0 (Cert.Spec.layer (fun a k => x12 (ix2 a k)) (fun a => x13 (ix1 a)) (fun k => x1 (ix2 p k)) a) := by
  rw [val_main_v35_apply, val_main_call3_v0_apply, val_main_call3_cst_apply, val_main_v34_apply, val_main_v31_apply,
    val_main_v33_apply, val_main_v32_apply]
  simp only [val_main_v30_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ => congrArg₂ (· * ·) (congrArg x1 ?_) (congrArg x12 ?_))
    (congrArg x13 ?_)
  · idx_eq2
  · idx_eq2
  · idx_eq1

/-- Second layer with its activation, on the first layer's activated row. -/
theorem d_l2 (p : Fin 4096) (b : Fin 256) :
    val_main_v41 (F := Ideal) x1 x12 x13 x14 x15 (ix2 p b)
      = Cert.Spec.relu0 (Cert.Spec.layer (fun a k => x14 (ix2 a k)) (fun a => x15 (ix1 a))
          (fun a => val_main_v35 (F := Ideal) x1 x12 x13 (ix2 p a)) b) := by
  rw [val_main_v41_apply, val_main_call4_v0_apply, val_main_call4_cst_apply, val_main_v40_apply, val_main_v37_apply,
    val_main_v39_apply, val_main_v38_apply]
  simp only [val_main_v36_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ =>
    congrArg₂ (· * ·) (congrArg (val_main_v35 (F := Ideal) x1 x12 x13) ?_) (congrArg x14 ?_)) (congrArg x15 ?_)
  · idx_eq2
  · idx_eq2
  · idx_eq1

/-- Third layer with its activation, on the second layer's activated row. -/
theorem d_l3 (p : Fin 4096) (c : Fin 64) :
    val_main_v47 (F := Ideal) x1 x12 x13 x14 x15 x16 x17 (ix2 p c)
      = Cert.Spec.relu0 (Cert.Spec.layer (fun a k => x16 (ix2 a k)) (fun a => x17 (ix1 a))
          (fun b => val_main_v41 (F := Ideal) x1 x12 x13 x14 x15 (ix2 p b)) c) := by
  rw [val_main_v47_apply, val_main_call5_v0_apply, val_main_call5_cst_apply, val_main_v46_apply, val_main_v43_apply,
    val_main_v45_apply, val_main_v44_apply]
  simp only [val_main_v42_apply, Ideal.maximumf_def, Ideal.addf_def, Ideal.ofBits_def]
  unfold Cert.Spec.relu0 Cert.Spec.layer
  refine congrArg (fun s => max s (Ideal.ofBits .f32 0x00000000#32)) ?_
  refine congrArg₂ (· + ·) (Finset.sum_congr rfl fun k _ =>
    congrArg₂ (· * ·) (congrArg (val_main_v41 (F := Ideal) x1 x12 x13 x14 x15) ?_) (congrArg x16 ?_)) (congrArg x17 ?_)
  · idx_eq2
  · idx_eq2
  · idx_eq1

/-- Fourth layer (no activation), on the third layer's activated row. -/
theorem d_l4 (p : Fin 4096) (e : Fin 256) :
    val_main_v52 (F := Ideal) x1 x12 x13 x14 x15 x16 x17 x18 x19 (ix2 p e)
      = Cert.Spec.layer (fun a k => x18 (ix2 a k)) (fun a => x19 (ix1 a))
          (fun c => val_main_v47 (F := Ideal) x1 x12 x13 x14 x15 x16 x17 (ix2 p c)) e := by
  rw [val_main_v52_apply, val_main_v49_apply, val_main_v51_apply, val_main_v50_apply]
  simp only [val_main_v48_apply, Ideal.addf_def]
  unfold Cert.Spec.layer
  refine congrArg₂ (· + ·) (Finset.sum_congr rfl fun k _ =>
    congrArg₂ (· * ·) (congrArg (val_main_v47 (F := Ideal) x1 x12 x13 x14 x15 x16 x17) ?_) (congrArg x18 ?_)) (congrArg x19 ?_)
  · idx_eq2
  · idx_eq2
  · idx_eq1

/-- The fourth layer's outputs of row p are the four layers composed on row p of the features. -/
theorem d_out (p : Fin 4096) (e : Fin 256) :
    val_main_v52 (F := Ideal) x1 x12 x13 x14 x15 x16 x17 x18 x19 (ix2 p e)
      = Cert.Spec.outRow (fun a k => x12 (ix2 a k)) (fun a => x13 (ix1 a)) (fun a k => x14 (ix2 a k)) (fun a => x15 (ix1 a))
          (fun a k => x16 (ix2 a k)) (fun a => x17 (ix1 a)) (fun a k => x18 (ix2 a k)) (fun a => x19 (ix1 a))
          (fun k => x1 (ix2 p k)) e := by
  rw [d_l4]
  unfold Cert.Spec.outRow
  simp only [d_l3, d_l2, d_l1]

/-- The second latent array at (p, q): the mean half plus the noise times the exponential of half the log-variance
    half, both halves read off the fourth layer's outputs of row p. -/
theorem lat_d_apply (p : Fin 4096) (q : Fin 128) :
    val_main_v59 (F := Ideal) x1 x3 x12 x13 x14 x15 x16 x17 x18 x19 (ix2 p q)
      = Cert.Spec.encRow (fun a k => x12 (ix2 a k)) (fun a => x13 (ix1 a)) (fun a k => x14 (ix2 a k)) (fun a => x15 (ix1 a))
          (fun a k => x16 (ix2 a k)) (fun a => x17 (ix1 a)) (fun a k => x18 (ix2 a k)) (fun a => x19 (ix1 a))
          (fun k => x1 (ix2 p k)) (fun r => x3 (ix2 p r)) q := by
  have hq : q.val < 128 := q.isLt
  have elo : idx_main_v53 (ix2 p q) = ix2 p (⟨q.val, by omega⟩ : Fin 256) := by idx_eq2
  have ehi : idx_main_v54 (ix2 p q) = ix2 p (⟨128 + q.val, by omega⟩ : Fin 256) := by idx_eq2
  rw [val_main_v59_apply, val_main_v53_apply, val_main_v58_apply, val_main_v57_apply, val_main_v56_apply,
    val_main_v55_apply, val_main_cst_0_apply, val_main_v54_apply, elo, ehi, d_out, d_out]
  simp only [Ideal.addf_def, Ideal.mulf_def, Ideal.hostUnary_exp_def, Ideal.ofBits_def]
  unfold Cert.Spec.encRow
  rfl

/-! ### The cosine matrix -/

/-- Row p of the first latent array divided by the square root of its sum of squares, at column q. -/
theorem m_nrm (p : Fin 4096) (q : Fin 128) :
    val_main_v62 (F := Ideal) x0 x2 x4 x5 x6 x7 x8 x9 x10 x11 (ix2 p q)
      = Ideal.div (val_main_v29 (F := Ideal) x0 x2 x4 x5 x6 x7 x8 x9 x10 x11 (ix2 p q))
          (Ideal.sqrt (Cert.Spec.rowss fun r => val_main_v29 (F := Ideal) x0 x2 x4 x5 x6 x7 x8 x9 x10 x11 (ix2 p r))) := by
  rw [val_main_v62_apply, val_main_v61_apply, val_main_v60_apply, val_main_call6_v2_apply, val_main_call6_v1_apply,
    val_main_call6_cst_apply]
  simp only [val_main_call6_v0_apply, Ideal.hostDivf_def, Ideal.hostUnary_sqrt_def, Ideal.ofBits_def, Ideal.mulf_def,
    Ideal.ofBits_zero_f32, zero_add]
  unfold Cert.Spec.rowss
  generalize val_main_v29 (F := Ideal) x0 x2 x4 x5 x6 x7 x8 x9 x10 x11 = z
  refine congrArg (fun s => Ideal.div (z (ix2 p q)) (Ideal.sqrt s)) (Finset.sum_congr rfl fun k _ => ?_)
  have e : idx_main_call6_v1 (idx_main_call6_v2 (idx_main_v61 (ix2 p q))) k = ix2 p k := by idx_eq2
  rw [e]

/-- Row j of the second latent array divided by the square root of its sum of squares, at column q. -/
theorem d_nrm (j : Fin 4096) (q : Fin 128) :
    val_main_v65 (F := Ideal) x1 x3 x12 x13 x14 x15 x16 x17 x18 x19 (ix2 j q)
      = Ideal.div (val_main_v59 (F := Ideal) x1 x3 x12 x13 x14 x15 x16 x17 x18 x19 (ix2 j q))
          (Ideal.sqrt (Cert.Spec.rowss fun r => val_main_v59 (F := Ideal) x1 x3 x12 x13 x14 x15 x16 x17 x18 x19 (ix2 j r))) := by
  rw [val_main_v65_apply, val_main_v64_apply, val_main_v63_apply, val_main_call7_v2_apply, val_main_call7_v1_apply,
    val_main_call7_cst_apply]
  simp only [val_main_call7_v0_apply, Ideal.hostDivf_def, Ideal.hostUnary_sqrt_def, Ideal.ofBits_def, Ideal.mulf_def,
    Ideal.ofBits_zero_f32, zero_add]
  unfold Cert.Spec.rowss
  generalize val_main_v59 (F := Ideal) x1 x3 x12 x13 x14 x15 x16 x17 x18 x19 = z
  refine congrArg (fun s => Ideal.div (z (ix2 j q)) (Ideal.sqrt s)) (Finset.sum_congr rfl fun k _ => ?_)
  have e : idx_main_call7_v1 (idx_main_call7_v2 (idx_main_v64 (ix2 j q))) k = ix2 j k := by idx_eq2
  rw [e]

/-- Entry (p, j) of the cosine matrix: the normalised row p of the first latent array against the normalised row j of
    the second. -/
theorem lw_apply (p j : Fin 4096) :
    val_main_v67 (F := Ideal) x0 x1 x2 x3 x4 x5 x6 x7 x8 x9 x10 x11 x12 x13 x14 x15 x16 x17 x18 x19 (ix2 p j)
      = Cert.Spec.cosR (fun q => val_main_v29 (F := Ideal) x0 x2 x4 x5 x6 x7 x8 x9 x10 x11 (ix2 p q))
          (fun q => val_main_v59 (F := Ideal) x1 x3 x12 x13 x14 x15 x16 x17 x18 x19 (ix2 j q)) := by
  rw [val_main_v67_apply]
  unfold Cert.Spec.cosR
  refine Finset.sum_congr rfl fun k _ => ?_
  have el : lidx_main_v67 (ix2 p j) k = ix2 p k := by idx_eq2
  have er : idx_main_v66 (ridx_main_v67 (ix2 p j) k) = ix2 j k := by idx_eq2
  rw [val_main_v66_apply, el, er, m_nrm, d_nrm]

end Cert.ReferenceIdeal.RefValue

end
-- ==== Proof.PreRows.lean ====
/-
  The last two conjuncts of the precondition, read back.

  The precondition is a conjunction of one-bit words.  Its last two conjuncts say, one for each latent array z, that
  every row sum  0 + ∑ k, z (p, k) · z (p, k)  compares greater than the zero word; the conjunction is "and" folded
  over the 4096 rows.  The latent array inside the precondition is the same composition of the same operations as the
  reference's encoder, and its row sums are the reference's own row sums (the ones it takes the square root of), so
  the two conjuncts are statements about the reference's stages: every row of each latent array has a positive sum
  of squares.
-/
import proofs.«138127_j29188597743707_1_alg».proof.Proof.Gen.ReferenceIdeal.Read
import proofs.«138127_j29188597743707_1_alg».proof.Pre_finite_inputs
import proofs.«138127_j29188597743707_1_alg».proof.Proof.Spec
import proofs.«138127_j29188597743707_1_alg».proof.Proof.LibMatrixLayout
import Idealize.ShloMosaic.Lib.ReduceAll

noncomputable section

namespace Cert.PreRows

open Idealize.ShloMosaic Idealize.ShloMosaic.ValueIdx Cert.ReferenceIdeal.Read

/-- A comparison "greater than" of extended reals that came out 1 is the strict inequality. -/
theorem lt_of_cmp_ogt {x y : EReal} (h : Ideal.cmp .ogt x y = 1#1) : y < x := by
  by_contra hn
  have h0 : Ideal.cmp .ogt x y = 0#1 := by
    show BitVec.ofBool (decide (y < x)) = 0#1
    rw [decide_eq_false hn]
    rfl
  rw [h0] at h
  exact absurd h (by decide)

section
variable [hP : Cert.Pre_finite_inputs.Facts]

/-- "Every entry of r is greater than zero", as the precondition spells it: the entries compared with the zero word
    broadcast to the vector's shape, and the 4096 one-bit answers folded by "and" from 1. -/
def allPos (r : FVec Ideal Cert.Pre_finite_inputs.S4096 .f32) : IVec Cert.Pre_finite_inputs.S_ 1 :=
  Host.reduce IntOp.andi
    (cmpf .ogt r (broadcastInDim Cert.Pre_finite_inputs.S4096 ![] hP.bcast_S_S4096 (constant Cert.Pre_finite_inputs.S_ .f32 0x00000000#32)))
    (constantI Cert.Pre_finite_inputs.S_ 1 1#1) hP.reducesTo_S4096_S_d0 hP.h_S_

/-- The fold is 1 only if every entry is positive. -/
theorem pos_of_allPos (r : FVec Ideal Cert.Pre_finite_inputs.S4096 .f32) (h : allPos r ix0 = 1#1) (p : Fin 4096) :
    (0 : EReal) < r (ix1 p) := by
  haveI : Subsingleton (Cert.Pre_finite_inputs.S_).Idx := ⟨fun a b => funext fun d => d.elim0⟩
  unfold allPos at h
  have h1 := Host.reduce_andi_all _ _ _ _ ix0 h (ix1 p)
  rw [cmpf_apply, Ideal.cmpf_def, Cert.LibMatrixLayout.bcast_scalar_apply, constant_apply, Ideal.ofBits_zero_f32] at h1
  exact lt_of_cmp_ogt h1

/-- The precondition is  (c ∧ first) ∧ second  for some word c (the twenty finiteness conjuncts), where "first" and
    "second" say that the reference's row sums of squares, of the first and of the second latent array, are all
    positive: unfolding both sides gives the same term. -/
theorem fn_shape (a0 : FVec Ideal Cert.Pre_finite_inputs.S4096x2048 .f32) (a1 : FVec Ideal Cert.Pre_finite_inputs.S4096x2048 .f32) (a2 : FVec Ideal Cert.Pre_finite_inputs.S4096x128 .f32) (a3 : FVec Ideal Cert.Pre_finite_inputs.S4096x128 .f32) (a4 : FVec Ideal Cert.Pre_finite_inputs.S512x2048 .f32) (a5 : FVec Ideal Cert.Pre_finite_inputs.S512 .f32) (a6 : FVec Ideal Cert.Pre_finite_inputs.S256x512 .f32) (a7 : FVec Ideal Cert.Pre_finite_inputs.S256 .f32) (a8 : FVec Ideal Cert.Pre_finite_inputs.S64x256 .f32) (a9 : FVec Ideal Cert.Pre_finite_inputs.S64 .f32) (a10 : FVec Ideal Cert.Pre_finite_inputs.S256x64 .f32) (a11 : FVec Ideal Cert.Pre_finite_inputs.S256 .f32) (a12 : FVec Ideal Cert.Pre_finite_inputs.S512x2048 .f32) (a13 : FVec Ideal Cert.Pre_finite_inputs.S512 .f32) (a14 : FVec Ideal Cert.Pre_finite_inputs.S256x512 .f32) (a15 : FVec Ideal Cert.Pre_finite_inputs.S256 .f32) (a16 : FVec Ideal Cert.Pre_finite_inputs.S64x256 .f32) (a17 : FVec Ideal Cert.Pre_finite_inputs.S64 .f32) (a18 : FVec Ideal Cert.Pre_finite_inputs.S256x64 .f32) (a19 : FVec Ideal Cert.Pre_finite_inputs.S256 .f32) (a20 : IVec Cert.Pre_finite_inputs.S32768x4 32) :
    ∃ c : IVec Cert.Pre_finite_inputs.S_ 1,
      Cert.Pre_finite_inputs.fn (F := Ideal) a0 a1 a2 a3 a4 a5 a6 a7 a8 a9 a10 a11 a12 a13 a14 a15 a16 a17 a18 a19 a20
        = andi (andi c (allPos (val_main_call6_v1 (F := Ideal) a0 a2 a4 a5 a6 a7 a8 a9 a10 a11)))
            (allPos (val_main_call7_v1 (F := Ideal) a1 a3 a12 a13 a14 a15 a16 a17 a18 a19)) :=
  ⟨_, rfl⟩

end

/-- Row p of the first latent array: the reference's row sum is the row's sum of squares. -/
theorem rowsum1 (a0 : (⟨Cert.ReferenceIdeal.S4096x2048, .f32⟩ : BufTy).Contents (Elt Ideal)) (a2 : (⟨Cert.ReferenceIdeal.S4096x128, .f32⟩ : BufTy).Contents (Elt Ideal)) (a4 : (⟨Cert.ReferenceIdeal.S512x2048, .f32⟩ : BufTy).Contents (Elt Ideal)) (a5 : (⟨Cert.ReferenceIdeal.S512, .f32⟩ : BufTy).Contents (Elt Ideal)) (a6 : (⟨Cert.ReferenceIdeal.S256x512, .f32⟩ : BufTy).Contents (Elt Ideal)) (a7 : (⟨Cert.ReferenceIdeal.S256, .f32⟩ : BufTy).Contents (Elt Ideal)) (a8 : (⟨Cert.ReferenceIdeal.S64x256, .f32⟩ : BufTy).Contents (Elt Ideal)) (a9 : (⟨Cert.ReferenceIdeal.S64, .f32⟩ : BufTy).Contents (Elt Ideal)) (a10 : (⟨Cert.ReferenceIdeal.S256x64, .f32⟩ : BufTy).Contents (Elt Ideal)) (a11 : (⟨Cert.ReferenceIdeal.S256, .f32⟩ : BufTy).Contents (Elt Ideal)) (p : Fin 4096) :
    val_main_call6_v1 (F := Ideal) a0 a2 a4 a5 a6 a7 a8 a9 a10 a11 (ix1 p)
      = Cert.Spec.rowss (fun q : Fin 128 => val_main_v29 (F := Ideal) a0 a2 a4 a5 a6 a7 a8 a9 a10 a11 (ix2 p q)) := by
  rw [val_main_call6_v1_apply, val_main_call6_cst_apply, Ideal.ofBits_def, Ideal.ofBits_zero_f32, zero_add]
  unfold Cert.Spec.rowss
  refine Finset.sum_congr rfl fun k _ => ?_
  have hk : idx_main_call6_v1 (ix1 p) k = ix2 p k :=
    funext fun a => Fin.ext (by match a with | ⟨0, _⟩ => rfl | ⟨1, _⟩ => rfl)
  rw [hk, val_main_call6_v0_apply, Ideal.mulf_def]

/-- Row p of the second latent array, likewise. -/
theorem rowsum2 (a1 : (⟨Cert.ReferenceIdeal.S4096x2048, .f32⟩ : BufTy).Contents (Elt Ideal)) (a3 : (⟨Cert.ReferenceIdeal.S4096x128, .f32⟩ : BufTy).Contents (Elt Ideal)) (a12 : (⟨Cert.ReferenceIdeal.S512x2048, .f32⟩ : BufTy).Contents (Elt Ideal)) (a13 : (⟨Cert.ReferenceIdeal.S512, .f32⟩ : BufTy).Contents (Elt Ideal)) (a14 : (⟨Cert.ReferenceIdeal.S256x512, .f32⟩ : BufTy).Contents (Elt Ideal)) (a15 : (⟨Cert.ReferenceIdeal.S256, .f32⟩ : BufTy).Contents (Elt Ideal)) (a16 : (⟨Cert.ReferenceIdeal.S64x256, .f32⟩ : BufTy).Contents (Elt Ideal)) (a17 : (⟨Cert.ReferenceIdeal.S64, .f32⟩ : BufTy).Contents (Elt Ideal)) (a18 : (⟨Cert.ReferenceIdeal.S256x64, .f32⟩ : BufTy).Contents (Elt Ideal)) (a19 : (⟨Cert.ReferenceIdeal.S256, .f32⟩ : BufTy).Contents (Elt Ideal)) (p : Fin 4096) :
    val_main_call7_v1 (F := Ideal) a1 a3 a12 a13 a14 a15 a16 a17 a18 a19 (ix1 p)
      = Cert.Spec.rowss (fun q : Fin 128 => val_main_v59 (F := Ideal) a1 a3 a12 a13 a14 a15 a16 a17 a18 a19 (ix2 p q)) := by
  rw [val_main_call7_v1_apply, val_main_call7_cst_apply, Ideal.ofBits_def, Ideal.ofBits_zero_f32, zero_add]
  unfold Cert.Spec.rowss
  refine Finset.sum_congr rfl fun k _ => ?_
  have hk : idx_main_call7_v1 (ix1 p) k = ix2 p k :=
    funext fun a => Fin.ext (by match a with | ⟨0, _⟩ => rfl | ⟨1, _⟩ => rfl)
  rw [hk, val_main_call7_v0_apply, Ideal.mulf_def]

/-- Under the precondition every row of each latent array has a positive sum of squares. -/
theorem rows_pos [Cert.Pre_finite_inputs.Facts] (a0 : FVec Ideal Cert.Pre_finite_inputs.S4096x2048 .f32) (a1 : FVec Ideal Cert.Pre_finite_inputs.S4096x2048 .f32) (a2 : FVec Ideal Cert.Pre_finite_inputs.S4096x128 .f32) (a3 : FVec Ideal Cert.Pre_finite_inputs.S4096x128 .f32) (a4 : FVec Ideal Cert.Pre_finite_inputs.S512x2048 .f32) (a5 : FVec Ideal Cert.Pre_finite_inputs.S512 .f32) (a6 : FVec Ideal Cert.Pre_finite_inputs.S256x512 .f32) (a7 : FVec Ideal Cert.Pre_finite_inputs.S256 .f32) (a8 : FVec Ideal Cert.Pre_finite_inputs.S64x256 .f32) (a9 : FVec Ideal Cert.Pre_finite_inputs.S64 .f32) (a10 : FVec Ideal Cert.Pre_finite_inputs.S256x64 .f32) (a11 : FVec Ideal Cert.Pre_finite_inputs.S256 .f32) (a12 : FVec Ideal Cert.Pre_finite_inputs.S512x2048 .f32) (a13 : FVec Ideal Cert.Pre_finite_inputs.S512 .f32) (a14 : FVec Ideal Cert.Pre_finite_inputs.S256x512 .f32) (a15 : FVec Ideal Cert.Pre_finite_inputs.S256 .f32) (a16 : FVec Ideal Cert.Pre_finite_inputs.S64x256 .f32) (a17 : FVec Ideal Cert.Pre_finite_inputs.S64 .f32) (a18 : FVec Ideal Cert.Pre_finite_inputs.S256x64 .f32) (a19 : FVec Ideal Cert.Pre_finite_inputs.S256 .f32) (a20 : IVec Cert.Pre_finite_inputs.S32768x4 32)
    (h : Cert.Pre_finite_inputs.fn (F := Ideal) a0 a1 a2 a3 a4 a5 a6 a7 a8 a9 a10 a11 a12 a13 a14 a15 a16 a17 a18 a19 a20 = (fun _ => 1#1)) :
    (∀ p : Fin 4096, 0 < Cert.Spec.rowss (fun q : Fin 128 => Cert.ReferenceIdeal.Read.val_main_v29 (F := Ideal) a0 a2 a4 a5 a6 a7 a8 a9 a10 a11 (ix2 p q)))
    ∧ (∀ p : Fin 4096, 0 < Cert.Spec.rowss (fun q : Fin 128 => Cert.ReferenceIdeal.Read.val_main_v59 (F := Ideal) a1 a3 a12 a13 a14 a15 a16 a17 a18 a19 (ix2 p q))) := by
  obtain ⟨c, hc⟩ := fn_shape a0 a1 a2 a3 a4 a5 a6 a7 a8 a9 a10 a11 a12 a13 a14 a15 a16 a17 a18 a19 a20
  have h0 : Cert.Pre_finite_inputs.fn (F := Ideal) a0 a1 a2 a3 a4 a5 a6 a7 a8 a9 a10 a11 a12 a13 a14 a15 a16 a17 a18 a19 a20 ix0 = 1#1 := congrFun h ix0
  rw [hc] at h0
  have h0' : IntOp.andi (andi c (allPos (val_main_call6_v1 (F := Ideal) a0 a2 a4 a5 a6 a7 a8 a9 a10 a11)) ix0)
      (allPos (val_main_call7_v1 (F := Ideal) a1 a3 a12 a13 a14 a15 a16 a17 a18 a19) ix0) = 1#1 := h0
  obtain ⟨h1, h2⟩ := IntOp.andi_eq_one.1 h0'
  have h1' : IntOp.andi (c ix0) (allPos (val_main_call6_v1 (F := Ideal) a0 a2 a4 a5 a6 a7 a8 a9 a10 a11) ix0) = 1#1 := h1
  obtain ⟨-, h3⟩ := IntOp.andi_eq_one.1 h1'
  refine ⟨fun p => ?_, fun p => ?_⟩
  · rw [← rowsum1]
    exact pos_of_allPos _ h3 p
  · rw [← rowsum2]
    exact pos_of_allPos _ h2 p

end Cert.PreRows

end
-- ==== Proof.lean ====
/-
  Two encoders, the cosine matrix of their latent rows, and a contrastive loss: the kernel program against its reference,
  on the extended reals.

  Each encoder is three dense layers with the maximum with zero between them, a fourth layer whose outputs are read as a
  mean and a log-variance, and  mean + noise · exp (½ · log-variance).  The kernel program computes it 512 rows at a time
  with the bias as a row and the weights contracted on their last axis; the reference computes it on all rows with the
  weights transposed first.  Entry by entry both are the same sums of the same products, so the two latent results are
  equal with no condition at all.

  For the cosine matrix the kernel program multiplies each latent row by the reciprocal square root of its sum of squares,
  the reference divides the row by the square root.  For a positive sum of squares these are one number; at a row of
  zeros they are not (0 · ∞ is read as 0, 0 / 0 as −∞), and there the reference itself is undefined.  The precondition
  therefore says, beside finiteness of the inputs, that every row of either latent array has a positive sum of squares —
  the one fact this proof takes from it.  Given equal matrices, the loss is one term on both sides: the same host
  operations applied to the matrix and to the sample indices.

  The three frames are the generated ones (the reference's is its run with the results dropped); nothing was rewritten
  when the kernel program was idealized, so `preserves` is trivial.
-/
import proofs.«138127_j29188597743707_1_alg».proof.Defs
import proofs.«138127_j29188597743707_1_alg».proof.Proof.Gen.Kernel
import proofs.«138127_j29188597743707_1_alg».proof.Proof.Gen.Kernel.Skeleton
import proofs.«138127_j29188597743707_1_alg».proof.Proof.Gen.Kernel.Launch
import proofs.«138127_j29188597743707_1_alg».proof.Proof.Gen.Kernel.Points
import proofs.«138127_j29188597743707_1_alg».proof.Proof.Gen.Kernel.Frame
import proofs.«138127_j29188597743707_1_alg».proof.Proof.Gen.KernelIdeal
import proofs.«138127_j29188597743707_1_alg».proof.Proof.Gen.KernelIdeal.Skeleton
import proofs.«138127_j29188597743707_1_alg».proof.Proof.Gen.KernelIdeal.Launch
import proofs.«138127_j29188597743707_1_alg».proof.Proof.Gen.KernelIdeal.Points
import proofs.«138127_j29188597743707_1_alg».proof.Proof.Gen.KernelIdeal.Frame
import proofs.«138127_j29188597743707_1_alg».proof.Proof.Gen.ReferenceIdeal
import proofs.«138127_j29188597743707_1_alg».proof.Proof.Gen.Pre_finite_inputs
import proofs.«138127_j29188597743707_1_alg».proof.Proof.Gen.ReferenceIdeal.Run
import proofs.«138127_j29188597743707_1_alg».proof.Proof.Gen.ReferenceIdeal.Read
import proofs.«138127_j29188597743707_1_alg».proof.Proof.Spec
import proofs.«138127_j29188597743707_1_alg».proof.Proof.KernelRun
import proofs.«138127_j29188597743707_1_alg».proof.Proof.Fold
import proofs.«138127_j29188597743707_1_alg».proof.Proof.Tail
import proofs.«138127_j29188597743707_1_alg».proof.Proof.RefValue
import proofs.«138127_j29188597743707_1_alg».proof.Proof.PreRows
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten when the kernel program was idealized. -/
theorem preserves : Cert.preserves_Kernel_KernelIdeal := trivial

/-- Under the precondition the kernel program's cosine matrix is the reference's matrix stage of the same arguments:
    the latent rows agree entry by entry, and with every row's sum of squares positive the two scalings agree. -/
theorem lw_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Fold.lw m c = Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := by
  obtain ⟨hm, hd⟩ := Cert.PreRows.rows_pos _ _ _ _ _ _ _ _ _ _ _ _ _ _ _ _ _ _ _ _ _ (hpre c)
  funext i
  obtain ⟨p, j, rfl⟩ : ∃ (p : Fin 4096) (j : Fin 4096), i = ix2 p j := ⟨i 0, i 1, eq_ix2 i⟩
  rw [Cert.ReferenceIdeal.RefValue.lw_apply]
  show Cert.Spec.cosK (fun q : Fin 128 => Cert.KernelIdeal.Fold.latM m c (ix2 p q)) (fun q : Fin 128 => Cert.KernelIdeal.Fold.latD m c (ix2 j q)) = _
  have eM : (fun q : Fin 128 => Cert.KernelIdeal.Fold.latM m c (ix2 p q))
      = fun q : Fin 128 => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (ix2 p q) :=
    funext fun q => (Cert.ReferenceIdeal.RefValue.lat_m_apply _ _ _ _ _ _ _ _ _ _ p q).symm
  have eD : (fun q : Fin 128 => Cert.KernelIdeal.Fold.latD m c (ix2 j q))
      = fun q : Fin 128 => Cert.ReferenceIdeal.Read.val_main_v59 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (ix2 j q) :=
    funext fun q => (Cert.ReferenceIdeal.RefValue.lat_d_apply _ _ _ _ _ _ _ _ _ _ j q).symm
  rw [eM, eD]
  exact (Cert.Spec.cosR_eq_cosK _ _ (hm p) (hd j)).symm

/-- The two programs, run from memories that agree on the arguments, end with the same loss and the same two latent
    arrays. -/
theorem algebraic : Cert.algebraic_KernelIdeal_ReferenceIdeal := by
  intro m ρ m' ρ' hpre hagree
  refine ⟨fun c => Cert.KernelIdeal.Gen.W6 m ρ c (Proc.devRef .tc Cert.KernelIdeal.main_v73),
    fun c => Cert.KernelIdeal.Fold.latM m c, fun c => Cert.KernelIdeal.Fold.latD m c, ?_, ?_⟩
  · refine (θ_run Cert.KernelIdeal.defs _ _).mono (fun r h c => ?_) (Cert.KernelIdeal.Run.run_values (F := Ideal) m ρ)
    obtain ⟨h0, h1, h2, hargs⟩ := h c
    exact ⟨h0, h1.trans (Cert.KernelIdeal.Fold.W6_main_v4 m ρ c), h2.trans (Cert.KernelIdeal.Fold.W6_main_v9 m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20⟩ := hagree c
    refine ⟨h0.trans ?_, h1.trans ?_, h2.trans ?_, hargs⟩
    · rw [Cert.ReferenceIdeal.Read.val_main_v130_eq, a0, a1, a2, a3, a4, a5, a6, a7, a8, a9, a10, a11, a12, a13, a14, a15, a16, a17, a18, a19, a20]
      exact (Cert.KernelIdeal.Tail.W6_main_v73 m ρ c (lw_eq m hpre c)).symm
    · refine (Cert.ReferenceIdeal.Read.val_main_v29_eq (F := Ideal) _ _ _ _ _ _ _ _ _ _).trans ?_
      rw [a0, a2, a4, a5, a6, a7, a8, a9, a10, a11]
      funext i
      obtain ⟨p, q, rfl⟩ : ∃ (p : Fin 4096) (q : Fin 128), i = ix2 p q := ⟨i 0, i 1, eq_ix2 i⟩
      exact Cert.ReferenceIdeal.RefValue.lat_m_apply _ _ _ _ _ _ _ _ _ _ p q
    · refine (Cert.ReferenceIdeal.Read.val_main_v59_eq (F := Ideal) _ _ _ _ _ _ _ _ _ _).trans ?_
      rw [a1, a3, a12, a13, a14, a15, a16, a17, a18, a19]
      funext i
      obtain ⟨p, q, rfl⟩ : ∃ (p : Fin 4096) (q : Fin 128), i = ix2 p q := ⟨i 0, i 1, eq_ix2 i⟩
      exact Cert.ReferenceIdeal.RefValue.lat_d_apply _ _ _ _ _ _ _ _ _ _ p q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
